-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x1 : Shape := ⟨3, ![100000, 32, 1]⟩
abbrev S100000x12 : Shape := ⟨2, ![100000, 12]⟩
abbrev S384x64 : Shape := ⟨2, ![384, 64]⟩
abbrev S64 : Shape := ⟨1, ![64]⟩
abbrev S768x64 : Shape := ⟨2, ![768, 64]⟩
abbrev S768x32 : Shape := ⟨2, ![768, 32]⟩
abbrev S32 : Shape := ⟨1, ![32]⟩
abbrev S_ : Shape := ⟨0, ![]⟩

class Facts : Prop where
  bcast_S_S100000x32x1 : S_.BroadcastsInDim S100000x32x1 (![] : Fin 0 → Fin S100000x32x1.rank)
  reducesTo_S100000x32x1_S_d0_1_2 : S100000x32x1.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_
  bcast_S_S768x32 : S_.BroadcastsInDim S768x32 (![] : Fin 0 → Fin S768x32.rank)
  reducesTo_S768x32_S_d0_1 : S768x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S768x32 .f32) (main_arg7 : FVec F S32 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x32 .f32 := Host.absf main_arg6
  let main_cst_8 : FVec F S_ .f32 := constant S_ .f32 0x7F800000#32
  let main_v25 : FVec F S768x32 .f32 := broadcastInDim S768x32 ![] bcast_S_S768x32 main_cst_8
  let main_v26 : IVec S768x32 1 := cmpf .olt main_v24 main_v25
  let main_c_9 : IVec S_ 1 := constantI S_ 1 1#1
  let main_v27 : IVec S_ 1 := (fun x v => Host.reduce IntOp.andi x v reducesTo_S768x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x32x1 .f32) (main_arg1 : IVec S100000x12 32) (main_arg2 : FVec F S384x64 .f32) (main_arg3 : FVec F S64 .f32) (main_arg4 : FVec F S768x64 .f32) (main_arg5 : FVec F S64 .f32) (main_arg6 : FVec F S768x32 .f32) (main_arg7 : FVec F S32 .f32) : IVec S_ 1 :=
  let main_v0 : FVec F S100000x32x1 .f32 := Host.absf main_arg0
  let main_cst : FVec F S_ .f32 := constant S_ .f32 0x7F800000#32
  let main_v1 : FVec F S100000x32x1 .f32 := broadcastInDim S100000x32x1 ![] bcast_S_S100000x32x1 main_cst
  let main_v2 : IVec S100000x32x1 1 := cmpf .olt main_v0 main_v1
  let main_c : IVec S_ 1 := constantI S_ 1 1#1
  let main_v3 : IVec S_ 1 := (fun x v => Host.reduce IntOp.andi x v reducesTo_S100000x32x1_S_d0_1_2 h_S_) main_v2 main_c
  let main_v4 : FVec F S384x64 .f32 := Host.absf main_arg2
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S768x64 .f32 := Host.absf main_arg4
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg5 main_arg6 main_arg7 main_v13 main_v16
-- ==== Kernel.lean ====
abbrev S100000x32x1 : Shape := ⟨3, ![100000, 32, 1]⟩
abbrev S100000x12 : Shape := ⟨2, ![100000, 12]⟩
abbrev S384x64 : Shape := ⟨2, ![384, 64]⟩
abbrev S64 : Shape := ⟨1, ![64]⟩
abbrev S768x64 : Shape := ⟨2, ![768, 64]⟩
abbrev S768x32 : Shape := ⟨2, ![768, 32]⟩
abbrev S32 : Shape := ⟨1, ![32]⟩
abbrev S100000x32 : Shape := ⟨2, ![100000, 32]⟩
abbrev S_ : Shape := ⟨0, ![]⟩
abbrev S100000x12x1 : Shape := ⟨3, ![100000, 12, 1]⟩
abbrev S1 : Shape := ⟨1, ![1]⟩
abbrev S1x1x1 : Shape := ⟨3, ![1, 1, 1]⟩
abbrev S100000x12x32 : Shape := ⟨3, ![100000, 12, 32]⟩
abbrev S100000x384 : Shape := ⟨2, ![100000, 384]⟩
abbrev S1x64 : Shape := ⟨2, ![1, 64]⟩
abbrev S100000x64 : Shape := ⟨2, ![100000, 64]⟩
abbrev S2000x384 : Shape := ⟨2, ![2000, 384]⟩
abbrev S2000x64 : Shape := ⟨2, ![2000, 64]⟩
abbrev S100000x12x64 : Shape := ⟨3, ![100000, 12, 64]⟩
abbrev S100000x768 : Shape := ⟨2, ![100000, 768]⟩
abbrev S2000x768 : Shape := ⟨2, ![2000, 768]⟩
abbrev S1x32 : Shape := ⟨2, ![1, 32]⟩
abbrev S2000x32 : Shape := ⟨2, ![2000, 32]⟩

abbrev nBuf : Space → Nat
  | .hbm => 88
  | .vmem => 18
  | .smem => 0
  | _ => 0

abbrev bufTy : (tb : Table) → Fin (tcTables nBuf tb) → BufTy
  | .hbm, ⟨0, _⟩ => ⟨S100000x32x1, .f32⟩
  | .hbm, ⟨1, _⟩ => ⟨S100000x12, .i32⟩
  | .hbm, ⟨2, _⟩ => ⟨S384x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S768x32, .f32⟩
  | .hbm, ⟨7, _⟩ => ⟨S32, .f32⟩
  | .hbm, ⟨8, _⟩ => ⟨S100000x32, .f32⟩
  | .hbm, ⟨9, _⟩ => ⟨S_, .i32⟩
  | .hbm, ⟨10, _⟩ => ⟨S100000x12, .i32⟩
  | .hbm, ⟨11, _⟩ => ⟨S100000x12, .i1⟩
  | .hbm, ⟨12, _⟩ => ⟨S_, .i32⟩
  | .hbm, ⟨13, _⟩ => ⟨S100000x12, .i32⟩
  | .hbm, ⟨14, _⟩ => ⟨S100000x12, .i32⟩
  | .hbm, ⟨15, _⟩ => ⟨S100000x12, .i32⟩
  | .hbm, ⟨16, _⟩ => ⟨S100000x12x1, .i32⟩
  | .hbm, ⟨17, _⟩ => ⟨S1, .i32⟩
  | .hbm, ⟨18, _⟩ => ⟨S_, .i32⟩
  | .hbm, ⟨19, _⟩ => ⟨S100000x12x1, .i32⟩
  | .hbm, ⟨20, _⟩ => ⟨S100000x12x1, .i1⟩
  | .hbm, ⟨21, _⟩ => ⟨S1x1x1, .i32⟩
  | .hbm, ⟨22, _⟩ => ⟨S100000x12x1, .i32⟩
  | .hbm, ⟨23, _⟩ => ⟨S100000x12x1, .i1⟩
  | .hbm, ⟨24, _⟩ => ⟨S100000x12x1, .i1⟩
  | .hbm, ⟨25, _⟩ => ⟨S_, .i1⟩
  | .hbm, ⟨26, _⟩ => ⟨S100000x12, .i1⟩
  | .hbm, ⟨27, _⟩ => ⟨S100000x12x32, .f32⟩
  | .hbm, ⟨28, _⟩ => ⟨S100000x12x32, .i1⟩
  | .hbm, ⟨29, _⟩ => ⟨S_, .f32⟩
  | .hbm, ⟨30, _⟩ => ⟨S100000x12x32, .f32⟩
  | .hbm, ⟨31, _⟩ => ⟨S100000x12x32, .f32⟩
  | .hbm, ⟨32, _⟩ => ⟨S100000x384, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S100000x12, .i32⟩
  | .hbm, ⟨37, _⟩ => ⟨S100000x12, .i1⟩
  | .hbm, ⟨38, _⟩ => ⟨S_, .i32⟩
  | .hbm, ⟨39, _⟩ => ⟨S100000x12, .i32⟩
  | .hbm, ⟨40, _⟩ => ⟨S100000x12, .i32⟩
  | .hbm, ⟨41, _⟩ => ⟨S100000x12, .i32⟩
  | .hbm, ⟨42, _⟩ => ⟨S100000x12x1, .i32⟩
  | .hbm, ⟨43, _⟩ => ⟨S1, .i32⟩
  | .hbm, ⟨44, _⟩ => ⟨S_, .i32⟩
  | .hbm, ⟨45, _⟩ => ⟨S100000x12x1, .i32⟩
  | .hbm, ⟨46, _⟩ => ⟨S100000x12x1, .i1⟩
  | .hbm, ⟨47, _⟩ => ⟨S1x1x1, .i32⟩
  | .hbm, ⟨48, _⟩ => ⟨S100000x12x1, .i32⟩
  | .hbm, ⟨49, _⟩ => ⟨S100000x12x1, .i1⟩
  | .hbm, ⟨50, _⟩ => ⟨S100000x12x1, .i1⟩
  | .hbm, ⟨51, _⟩ => ⟨S_, .i1⟩
  | .hbm, ⟨52, _⟩ => ⟨S100000x12, .i1⟩
  | .hbm, ⟨53, _⟩ => ⟨S100000x12x64, .f32⟩
  | .hbm, ⟨54, _⟩ => ⟨S100000x12x64, .i1⟩
  | .hbm, ⟨55, _⟩ => ⟨S_, .f32⟩
  | .hbm, ⟨56, _⟩ => ⟨S100000x12x64, .f32⟩
  | .hbm, ⟨57, _⟩ => ⟨S100000x12x64, .f32⟩
  | .hbm, ⟨58, _⟩ => ⟨S100000x768, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S100000x12, .i32⟩
  | .hbm, ⟨63, _⟩ => ⟨S100000x12, .i1⟩
  | .hbm, ⟨64, _⟩ => ⟨S_, .i32⟩
  | .hbm, ⟨65, _⟩ => ⟨S100000x12, .i32⟩
  | .hbm, ⟨66, _⟩ => ⟨S100000x12, .i32⟩
  | .hbm, ⟨67, _⟩ => ⟨S100000x12, .i32⟩
  | .hbm, ⟨68, _⟩ => ⟨S100000x12x1, .i32⟩
  | .hbm, ⟨69, _⟩ => ⟨S1, .i32⟩
  | .hbm, ⟨70, _⟩ => ⟨S_, .i32⟩
  | .hbm, ⟨71, _⟩ => ⟨S100000x12x1, .i32⟩
  | .hbm, ⟨72, _⟩ => ⟨S100000x12x1, .i1⟩
  | .hbm, ⟨73, _⟩ => ⟨S1x1x1, .i32⟩
  | .hbm, ⟨74, _⟩ => ⟨S100000x12x1, .i32⟩
  | .hbm, ⟨75, _⟩ => ⟨S100000x12x1, .i1⟩
  | .hbm, ⟨76, _⟩ => ⟨S100000x12x1, .i1⟩
  | .hbm, ⟨77, _⟩ => ⟨S_, .i1⟩
  | .hbm, ⟨78, _⟩ => ⟨S100000x12, .i1⟩
  | .hbm, ⟨79, _⟩ => ⟨S100000x12x64, .f32⟩
  | .hbm, ⟨80, _⟩ => ⟨S100000x12x64, .i1⟩
  | .hbm, ⟨81, _⟩ => ⟨S_, .f32⟩
  | .hbm, ⟨82, _⟩ => ⟨S100000x12x64, .f32⟩
  | .hbm, ⟨83, _⟩ => ⟨S100000x12x64, .f32⟩
  | .hbm, ⟨84, _⟩ => ⟨S100000x768, .f32⟩
  | .hbm, ⟨85, _⟩ => ⟨S1x32, .f32⟩
  | .hbm, ⟨86, _⟩ => ⟨S100000x32, .f32⟩
  | .hbm, ⟨87, _⟩ => ⟨S100000x32x1, .f32⟩
  | .local _ .vmem, ⟨0, _⟩ => ⟨S2000x384, .f32⟩
  | .local _ .vmem, ⟨1, _⟩ => ⟨S2000x384, .f32⟩
  | .local _ .vmem, ⟨2, _⟩ => ⟨S384x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x768, .f32⟩
  | .local _ .vmem, ⟨7, _⟩ => ⟨S2000x768, .f32⟩
  | .local _ .vmem, ⟨8, _⟩ => ⟨S768x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x768, .f32⟩
  | .local _ .vmem, ⟨13, _⟩ => ⟨S2000x768, .f32⟩
  | .local _ .vmem, ⟨14, _⟩ => ⟨S768x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | _, _ => ⟨S100000x32x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S100000x32x1_S100000x32 : S100000x32x1.ShapeCasts S100000x32
  bcast_S_S100000x12 : S_.BroadcastsInDim S100000x12 (![] : Fin 0 → Fin S100000x12.rank)
  bcast_S100000x12_S100000x12x1_0_1 : S100000x12.BroadcastsInDim S100000x12x1 (![0, 1] : Fin 2 → Fin S100000x12x1.rank)
  bcast_S_S100000x12x1 : S_.BroadcastsInDim S100000x12x1 (![] : Fin 0 → Fin S100000x12x1.rank)
  bcast_S1_S1x1x1_2 : S1.BroadcastsInDim S1x1x1 (![2] : Fin 1 → Fin S1x1x1.rank)
  bcast_S1x1x1_S100000x12x1_0_1_2 : S1x1x1.BroadcastsInDim S100000x12x1 (![0, 1, 2] : Fin 3 → Fin S100000x12x1.rank)
  reducesTo_S100000x12x1_S100000x12_d2 : S100000x12x1.ReducesTo [2] S100000x12
  h_S_ : 0 < S_.numel
  bcast_S100000x12_S100000x12x32_0_1 : S100000x12.BroadcastsInDim S100000x12x32 (![0, 1] : Fin 2 → Fin S100000x12x32.rank)
  bcast_S_S100000x12x32 : S_.BroadcastsInDim S100000x12x32 (![] : Fin 0 → Fin S100000x12x32.rank)
  shapeCasts_S100000x12x32_S100000x384 : S100000x12x32.ShapeCasts S100000x384
  shapeCasts_S64_S1x64 : S64.ShapeCasts S1x64
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S100000x12_S100000x12x64_0_1 : S100000x12.BroadcastsInDim S100000x12x64 (![0, 1] : Fin 2 → Fin S100000x12x64.rank)
  bcast_S_S100000x12x64 : S_.BroadcastsInDim S100000x12x64 (![] : Fin 0 → Fin S100000x12x64.rank)
  shapeCasts_S100000x12x64_S100000x768 : S100000x12x64.ShapeCasts S100000x768
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  inb_S768x64_S768x64_0_0 : ∀ a, (![0, 0] : Fin 2 → Nat) a + S768x64.size a ≤ S768x64.size a
  h_S768x64 : 0 < S768x64.numel
  shapeCasts_S32_S1x32 : S32.ShapeCasts S1x32
  inb_S768x32_S768x32_0_0 : ∀ a, (![0, 0] : Fin 2 → Nat) a + S768x32.size a ≤ S768x32.size a
  h_S768x32 : 0 < S768x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S100000x32_S100000x32x1_0_1 : S100000x32.BroadcastsInDim S100000x32x1 (![0, 1] : Fin 2 → Fin S100000x32x1.rank)
  gather_S100000x32_S100000x12x1_S100000x12x32_2_0_n_n_0_2_132_wf : GatherDims.WF S100000x32 S100000x12x1 S100000x12x32 [2] [0] [] [0] [] 2 ![1, 32]
  dot_S2000x384_S384x64_S2000x64_1_0_0_1_n_n_wf : DotDims.WF S2000x384 S384x64 S2000x64 [1] [0] [0] [1] [] []
  gather_S100000x64_S100000x12x1_S100000x12x64_2_0_n_n_0_2_164_wf : GatherDims.WF S100000x64 S100000x12x1 S100000x12x64 [2] [0] [] [0] [] 2 ![1, 64]
  dot_S2000x768_S768x64_S2000x64_1_0_0_1_n_n_wf : DotDims.WF S2000x768 S768x64 S2000x64 [1] [0] [0] [1] [] []
  dot_S2000x768_S768x32_S2000x32_1_0_0_1_n_n_wf : DotDims.WF S2000x768 S768x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S100000x384.size a
  hwx0_0 : ∀ i : grid0.Coords, EltTy.bits .f32 = 32 ∨ (Rect.block (s := S100000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S100000x768.size a
  hwx1_0 : ∀ i : grid1.Coords, EltTy.bits .f32 = 32 ∨ (Rect.block (s := S100000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x768.size a ≤ S100000x768.size a
  hwx2_0 : ∀ i : grid2.Coords, EltTy.bits .f32 = 32 ∨ (Rect.block (s := S100000x768) S2000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x32.size a ≤ S768x32.size a
  hwx2_1 : ∀ i : grid2.Coords, EltTy.bits .f32 = 32 ∨ (Rect.block (s := S768x32) S768x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)

variable [Facts₀]

def gather_S100000x32_S100000x12x1_S100000x12x32_2_0_n_n_0_2_132 : GatherDims S100000x32 S100000x12x1 S100000x12x32 where
  offsetDims := [2]
  collapsedSliceDims := [0]
  operandBatchingDims := []
  startIndicesBatchingDims := []
  startIndexMap := [0]
  indexVectorDim := 2
  sliceSizes := ![1, 32]
  wf := gather_S100000x32_S100000x12x1_S100000x12x32_2_0_n_n_0_2_132_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def gather_S100000x64_S100000x12x1_S100000x12x64_2_0_n_n_0_2_164 : GatherDims S100000x64 S100000x12x1 S100000x12x64 where
  offsetDims := [2]
  collapsedSliceDims := [0]
  operandBatchingDims := []
  startIndicesBatchingDims := []
  startIndexMap := [0]
  indexVectorDim := 2
  sliceSizes := ![1, 64]
  wf := gather_S100000x64_S100000x12x1_S100000x12x64_2_0_n_n_0_2_164_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def dot_S2000x768_S768x32_S2000x32_1_0_0_1_n_n : DotDims S2000x768 S768x32 S2000x32 where
  lhsContracting := [1]
  rhsContracting := [0]
  lhsNonContracting := [0]
  rhsNonContracting := [1]
  lhsBatch := []
  rhsBatch := []
  wf := dot_S2000x768_S768x32_S2000x32_1_0_0_1_n_n_wf

abbrev win0_0 : Pipeline.Window sig grid0 :=
  Pipeline.Window.ofSpec (Memref.whole main_v2) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S2000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S768x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32x1 : Shape := ⟨3, ![100000, 32, 1]⟩
abbrev S100000x12 : Shape := ⟨2, ![100000, 12]⟩
abbrev S384x64 : Shape := ⟨2, ![384, 64]⟩
abbrev S64 : Shape := ⟨1, ![64]⟩
abbrev S768x64 : Shape := ⟨2, ![768, 64]⟩
abbrev S768x32 : Shape := ⟨2, ![768, 32]⟩
abbrev S32 : Shape := ⟨1, ![32]⟩
abbrev S100000x32 : Shape := ⟨2, ![100000, 32]⟩
abbrev S_ : Shape := ⟨0, ![]⟩
abbrev S100000x12x1 : Shape := ⟨3, ![100000, 12, 1]⟩
abbrev S1 : Shape := ⟨1, ![1]⟩
abbrev S1x1x1 : Shape := ⟨3, ![1, 1, 1]⟩
abbrev S100000x12x32 : Shape := ⟨3, ![100000, 12, 32]⟩
abbrev S100000x384 : Shape := ⟨2, ![100000, 384]⟩
abbrev S100000x64 : Shape := ⟨2, ![100000, 64]⟩
abbrev S1x64 : Shape := ⟨2, ![1, 64]⟩
abbrev S100000x12x64 : Shape := ⟨3, ![100000, 12, 64]⟩
abbrev S100000x768 : Shape := ⟨2, ![100000, 768]⟩
abbrev S1x32 : Shape := ⟨2, ![1, 32]⟩

abbrev nBuf : Space → Nat
  | .hbm => 124
  | .vmem => 0
  | .smem => 0
  | _ => 0

abbrev bufTy : (tb : Table) → Fin (tcTables nBuf tb) → BufTy
  | .hbm, ⟨0, _⟩ => ⟨S100000x32x1, .f32⟩
  | .hbm, ⟨1, _⟩ => ⟨S100000x12, .i32⟩
  | .hbm, ⟨2, _⟩ => ⟨S384x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S768x32, .f32⟩
  | .hbm, ⟨7, _⟩ => ⟨S32, .f32⟩
  | .hbm, ⟨8, _⟩ => ⟨S100000x32, .f32⟩
  | .hbm, ⟨9, _⟩ => ⟨S_, .i32⟩
  | .hbm, ⟨10, _⟩ => ⟨S100000x12, .i32⟩
  | .hbm, ⟨11, _⟩ => ⟨S100000x12, .i1⟩
  | .hbm, ⟨12, _⟩ => ⟨S_, .i32⟩
  | .hbm, ⟨13, _⟩ => ⟨S100000x12, .i32⟩
  | .hbm, ⟨14, _⟩ => ⟨S100000x12, .i32⟩
  | .hbm, ⟨15, _⟩ => ⟨S100000x12, .i32⟩
  | .hbm, ⟨16, _⟩ => ⟨S100000x12x1, .i32⟩
  | .hbm, ⟨17, _⟩ => ⟨S1, .i32⟩
  | .hbm, ⟨18, _⟩ => ⟨S_, .i32⟩
  | .hbm, ⟨19, _⟩ => ⟨S100000x12x1, .i32⟩
  | .hbm, ⟨20, _⟩ => ⟨S100000x12x1, .i1⟩
  | .hbm, ⟨21, _⟩ => ⟨S1x1x1, .i32⟩
  | .hbm, ⟨22, _⟩ => ⟨S100000x12x1, .i32⟩
  | .hbm, ⟨23, _⟩ => ⟨S100000x12x1, .i1⟩
  | .hbm, ⟨24, _⟩ => ⟨S100000x12x1, .i1⟩
  | .hbm, ⟨25, _⟩ => ⟨S_, .i1⟩
  | .hbm, ⟨26, _⟩ => ⟨S100000x12, .i1⟩
  | .hbm, ⟨27, _⟩ => ⟨S100000x12x32, .f32⟩
  | .hbm, ⟨28, _⟩ => ⟨S100000x12x32, .i1⟩
  | .hbm, ⟨29, _⟩ => ⟨S_, .f32⟩
  | .hbm, ⟨30, _⟩ => ⟨S100000x12x32, .f32⟩
  | .hbm, ⟨31, _⟩ => ⟨S100000x12x32, .f32⟩
  | .hbm, ⟨32, _⟩ => ⟨S100000x384, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .i1⟩
  | .hbm, ⟨40, _⟩ => ⟨S_, .f32⟩
  | .hbm, ⟨41, _⟩ => ⟨S100000x64, .f32⟩
  | .hbm, ⟨42, _⟩ => ⟨S100000x64, .i1⟩
  | .hbm, ⟨43, _⟩ => ⟨S_, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S100000x12, .i32⟩
  | .hbm, ⟨54, _⟩ => ⟨S100000x12, .i1⟩
  | .hbm, ⟨55, _⟩ => ⟨S_, .i32⟩
  | .hbm, ⟨56, _⟩ => ⟨S100000x12, .i32⟩
  | .hbm, ⟨57, _⟩ => ⟨S100000x12, .i32⟩
  | .hbm, ⟨58, _⟩ => ⟨S100000x12, .i32⟩
  | .hbm, ⟨59, _⟩ => ⟨S100000x12x1, .i32⟩
  | .hbm, ⟨60, _⟩ => ⟨S1, .i32⟩
  | .hbm, ⟨61, _⟩ => ⟨S_, .i32⟩
  | .hbm, ⟨62, _⟩ => ⟨S100000x12x1, .i32⟩
  | .hbm, ⟨63, _⟩ => ⟨S100000x12x1, .i1⟩
  | .hbm, ⟨64, _⟩ => ⟨S1x1x1, .i32⟩
  | .hbm, ⟨65, _⟩ => ⟨S100000x12x1, .i32⟩
  | .hbm, ⟨66, _⟩ => ⟨S100000x12x1, .i1⟩
  | .hbm, ⟨67, _⟩ => ⟨S100000x12x1, .i1⟩
  | .hbm, ⟨68, _⟩ => ⟨S_, .i1⟩
  | .hbm, ⟨69, _⟩ => ⟨S100000x12, .i1⟩
  | .hbm, ⟨70, _⟩ => ⟨S100000x12x64, .f32⟩
  | .hbm, ⟨71, _⟩ => ⟨S100000x12x64, .i1⟩
  | .hbm, ⟨72, _⟩ => ⟨S_, .f32⟩
  | .hbm, ⟨73, _⟩ => ⟨S100000x12x64, .f32⟩
  | .hbm, ⟨74, _⟩ => ⟨S100000x12x64, .f32⟩
  | .hbm, ⟨75, _⟩ => ⟨S100000x768, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .i1⟩
  | .hbm, ⟨83, _⟩ => ⟨S_, .f32⟩
  | .hbm, ⟨84, _⟩ => ⟨S100000x64, .f32⟩
  | .hbm, ⟨85, _⟩ => ⟨S100000x64, .i1⟩
  | .hbm, ⟨86, _⟩ => ⟨S_, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S100000x12, .i32⟩
  | .hbm, ⟨97, _⟩ => ⟨S100000x12, .i1⟩
  | .hbm, ⟨98, _⟩ => ⟨S_, .i32⟩
  | .hbm, ⟨99, _⟩ => ⟨S100000x12, .i32⟩
  | .hbm, ⟨100, _⟩ => ⟨S100000x12, .i32⟩
  | .hbm, ⟨101, _⟩ => ⟨S100000x12, .i32⟩
  | .hbm, ⟨102, _⟩ => ⟨S100000x12x1, .i32⟩
  | .hbm, ⟨103, _⟩ => ⟨S1, .i32⟩
  | .hbm, ⟨104, _⟩ => ⟨S_, .i32⟩
  | .hbm, ⟨105, _⟩ => ⟨S100000x12x1, .i32⟩
  | .hbm, ⟨106, _⟩ => ⟨S100000x12x1, .i1⟩
  | .hbm, ⟨107, _⟩ => ⟨S1x1x1, .i32⟩
  | .hbm, ⟨108, _⟩ => ⟨S100000x12x1, .i32⟩
  | .hbm, ⟨109, _⟩ => ⟨S100000x12x1, .i1⟩
  | .hbm, ⟨110, _⟩ => ⟨S100000x12x1, .i1⟩
  | .hbm, ⟨111, _⟩ => ⟨S_, .i1⟩
  | .hbm, ⟨112, _⟩ => ⟨S100000x12, .i1⟩
  | .hbm, ⟨113, _⟩ => ⟨S100000x12x64, .f32⟩
  | .hbm, ⟨114, _⟩ => ⟨S100000x12x64, .i1⟩
  | .hbm, ⟨115, _⟩ => ⟨S_, .f32⟩
  | .hbm, ⟨116, _⟩ => ⟨S100000x12x64, .f32⟩
  | .hbm, ⟨117, _⟩ => ⟨S100000x12x64, .f32⟩
  | .hbm, ⟨118, _⟩ => ⟨S100000x768, .f32⟩
  | .hbm, ⟨119, _⟩ => ⟨S100000x32, .f32⟩
  | .hbm, ⟨120, _⟩ => ⟨S1x32, .f32⟩
  | .hbm, ⟨121, _⟩ => ⟨S100000x32, .f32⟩
  | .hbm, ⟨122, _⟩ => ⟨S100000x32, .f32⟩
  | .hbm, ⟨123, _⟩ => ⟨S100000x32x1, .f32⟩
  | _, _ => ⟨S100000x32x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v7 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_call3_cst : Ref sig .tc := ⟨.hbm, 80, rfl⟩
abbrev main_call3_v0 : Ref sig .tc := ⟨.hbm, 81, rfl⟩
abbrev main_call3_v1 : Ref sig .tc := ⟨.hbm, 82, rfl⟩
abbrev main_call3_cst_0 : Ref sig .tc := ⟨.hbm, 83, rfl⟩
abbrev main_call3_v2 : Ref sig .tc := ⟨.hbm, 84, rfl⟩
abbrev main_call3_v3 : Ref sig .tc := ⟨.hbm, 85, rfl⟩
abbrev main_call3_cst_1 : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_v4 : Ref sig .tc := ⟨.hbm, 89, rfl⟩
abbrev main_call3_v5 : Ref sig .tc := ⟨.hbm, 90, rfl⟩
abbrev main_call3_cst_2 : Ref sig .tc := ⟨.hbm, 91, rfl⟩
abbrev main_call3_v6 : Ref sig .tc := ⟨.hbm, 92, rfl⟩
abbrev main_call3_v7 : Ref sig .tc := ⟨.hbm, 93, rfl⟩
abbrev main_v14 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩

abbrev nD : Nat := 1
abbrev τ : Topo := Topo.v7x

variable {F : FTy → Type} [FloatOps F]

class Facts₀ : Prop where
  shapeCasts_S100000x32x1_S100000x32 : S100000x32x1.ShapeCasts S100000x32
  bcast_S_S100000x12 : S_.BroadcastsInDim S100000x12 (![] : Fin 0 → Fin S100000x12.rank)
  bcast_S100000x12_S100000x12x1_0_1 : S100000x12.BroadcastsInDim S100000x12x1 (![0, 1] : Fin 2 → Fin S100000x12x1.rank)
  bcast_S_S100000x12x1 : S_.BroadcastsInDim S100000x12x1 (![] : Fin 0 → Fin S100000x12x1.rank)
  bcast_S1_S1x1x1_2 : S1.BroadcastsInDim S1x1x1 (![2] : Fin 1 → Fin S1x1x1.rank)
  bcast_S1x1x1_S100000x12x1_0_1_2 : S1x1x1.BroadcastsInDim S100000x12x1 (![0, 1, 2] : Fin 3 → Fin S100000x12x1.rank)
  reducesTo_S100000x12x1_S100000x12_d2 : S100000x12x1.ReducesTo [2] S100000x12
  h_S_ : 0 < S_.numel
  bcast_S100000x12_S100000x12x32_0_1 : S100000x12.BroadcastsInDim S100000x12x32 (![0, 1] : Fin 2 → Fin S100000x12x32.rank)
  bcast_S_S100000x12x32 : S_.BroadcastsInDim S100000x12x32 (![] : Fin 0 → Fin S100000x12x32.rank)
  shapeCasts_S100000x12x32_S100000x384 : S100000x12x32.ShapeCasts S100000x384
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x12_S100000x12x64_0_1 : S100000x12.BroadcastsInDim S100000x12x64 (![0, 1] : Fin 2 → Fin S100000x12x64.rank)
  bcast_S_S100000x12x64 : S_.BroadcastsInDim S100000x12x64 (![] : Fin 0 → Fin S100000x12x64.rank)
  shapeCasts_S100000x12x64_S100000x768 : S100000x12x64.ShapeCasts S100000x768
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x32_S100000x32x1_0_1 : S100000x32.BroadcastsInDim S100000x32x1 (![0, 1] : Fin 2 → Fin S100000x32x1.rank)
  gather_S100000x32_S100000x12x1_S100000x12x32_2_0_n_n_0_2_132_wf : GatherDims.WF S100000x32 S100000x12x1 S100000x12x32 [2] [0] [] [0] [] 2 ![1, 32]
  dot_S100000x384_S384x64_S100000x64_1_0_0_1_n_n_wf : DotDims.WF S100000x384 S384x64 S100000x64 [1] [0] [0] [1] [] []
  gather_S100000x64_S100000x12x1_S100000x12x64_2_0_n_n_0_2_164_wf : GatherDims.WF S100000x64 S100000x12x1 S100000x12x64 [2] [0] [] [0] [] 2 ![1, 64]
  dot_S100000x768_S768x64_S100000x64_1_0_0_1_n_n_wf : DotDims.WF S100000x768 S768x64 S100000x64 [1] [0] [0] [1] [] []
  dot_S100000x768_S768x32_S100000x32_1_0_0_1_n_n_wf : DotDims.WF S100000x768 S768x32 S100000x32 [1] [0] [0] [1] [] []

variable [Facts₀]

def gather_S100000x32_S100000x12x1_S100000x12x32_2_0_n_n_0_2_132 : GatherDims S100000x32 S100000x12x1 S100000x12x32 where
  offsetDims := [2]
  collapsedSliceDims := [0]
  operandBatchingDims := []
  startIndicesBatchingDims := []
  startIndexMap := [0]
  indexVectorDim := 2
  sliceSizes := ![1, 32]
  wf := gather_S100000x32_S100000x12x1_S100000x12x32_2_0_n_n_0_2_132_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def gather_S100000x64_S100000x12x1_S100000x12x64_2_0_n_n_0_2_164 : GatherDims S100000x64 S100000x12x1 S100000x12x64 where
  offsetDims := [2]
  collapsedSliceDims := [0]
  operandBatchingDims := []
  startIndicesBatchingDims := []
  startIndexMap := [0]
  indexVectorDim := 2
  sliceSizes := ![1, 64]
  wf := gather_S100000x64_S100000x12x1_S100000x12x64_2_0_n_n_0_2_164_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def dot_S100000x768_S768x32_S100000x32_1_0_0_1_n_n : DotDims S100000x768 S768x32 S100000x32 where
  lhsContracting := [1]
  rhsContracting := [0]
  lhsNonContracting := [0]
  rhsNonContracting := [1]
  lhsBatch := []
  rhsBatch := []
  wf := dot_S100000x768_S768x32_S100000x32_1_0_0_1_n_n_wf

class Facts : Prop extends Facts₀ where

variable [Facts]
-- ==== Proof.RunNamed.lean ====
/-
  The idealized kernel program's run with its result NAMED: every weakly fair execution of @main terminates, nothing
  faulting, with the argument arrays as launched and the result array at the value the program's fold of buffer
  contents gives it — the contents after the last host operation, read at the result's buffer. The fold walks @main:
  a stretch of host operations replaces the contents by the operations' results; a pallas_call replaces its windows'
  arrays by what its write-backs leave and keeps every other buffer. (The frame theorem of this program states the same
  run with only the arguments in its post; here the last thread state is read at one more buffer.)
-/
import proofs.«172248_j11819749998924_1_alg».proof.Proof.Gen.KernelIdeal.Frame

set_option maxRecDepth 16384

noncomputable section

namespace Cert.KernelIdeal.Spiral

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over @main's eleven segments, the last thread state read against the final state at the result buffer and at
    each argument. -/
theorem run_named : θ_run defs (onTc (τ := τ) (main (F := F))) ⟨m, fun _ => 0, ρ⟩ (fun r => ∀ c : Dev nD,
      r.2.mem ((c.tc : Thread nD τ).loc main_v13) = W11 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v13 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Spiral

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«172248_j11819749998924_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibEluStage.lean ====
/-
  An affine stage, and the exponential linear unit after it, on the extended reals — in the two spellings that
  lower from "x @ w + b" and from "where(y > 0, y, exp(y) - 1)" against "elu(y)".

  For an M×K array x, a K×N weight w and a bias given as a one-row array b (shape [1, N]) the affine stage is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast
    to its own shape) spread over the rows, is the affine stage.
  * affine_of_dotGeneral: the host's product over the same dimension numbers plus the bias row spread along the axes
    [0, 1] is the affine stage.
  * affine_rows: a row of the stage depends on x only through the same row of x, so a block of rows of x gives that
    block of the stage (for kernels that tile the rows over a grid).
  * row_of_vector_cast, row_of_vector_bcast: a length-N vector made a [1, N] row by a reshape, or by a broadcast that
    keeps axis 1, reads the vector's entry c at (0, c); so the two rows are one array (row_cast_eq_bcast).

  The unit: elu y is y where the comparison y > 0 answers 1, and e^y − 1 elsewhere (the comparison against the zero word,
  the 1 written as the word 0x3F800000).
  * elu_of_where: the kernel's spelling select(y > 0, y, exp y − 1), with splat scalar constants, is elu entry by entry.
  * elu_of_expm1: the host's spelling select(y > 0, y, 1·expm1(select(y > 0, 0, y))), with rank-0 constants spread
    along no axis, is elu entry by entry: where the comparison answers 1 both give y; elsewhere the inner select
    gives y back, expm1 y is e^y − 1 by definition, and 1·z = z on the extended reals.
  No finiteness hypothesis anywhere. Over the library, the plain-product lemmas, the dense-stage row lemmas, the
  word spellings and the host-broadcast lemmas; every extent is a variable.
-/
import Idealize.ShloMosaic.PureOps.Ideal.Laws
import Idealize.ShloMosaic.Lib.ValueIdx
import Idealize.ShloMosaic.Lib.Pipeline.Value
import proofs.«172248_j11819749998924_1_alg».proof.Proof.LibPlainDot
import proofs.«172248_j11819749998924_1_alg».proof.Proof.LibDenseStage
import proofs.«172248_j11819749998924_1_alg».proof.Proof.LibSpellings
import proofs.«172248_j11819749998924_1_alg».proof.Proof.LibHostBroadcast

noncomputable section

namespace Cert.LibEluStage

open Idealize.ShloMosaic Idealize.ShloMosaic.ValueIdx

variable (M K N : Nat)

/-! ## The affine stage -/

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- Row a' of a block's stage is row a of the whole's, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The matrix unit's spelling of the affine stage. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the affine stage. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-! ## A vector as a one-row array -/

/-- A length-N vector reshaped to a [1, N] row reads, at (0, c), the vector's entry c. -/
theorem row_of_vector_cast {α : Type} (v : (⟨1, ![N]⟩ : Shape).Idx → α) (h : (⟨1, ![N]⟩ : Shape).ShapeCasts ⟨2, ![1, N]⟩)
    (u : Fin 1) (c : Fin N) : shapeCast ⟨2, ![1, N]⟩ v h (ix2 u c) = v (ix1 c) :=
  shapeCast_apply v h _ _ (by
    rw [Shape.rowMajor_val_two, Shape.rowMajor_val_one]
    show c.val = u.val * N + c.val
    have hu : u.val = 0 := Nat.lt_one_iff.mp u.isLt
    rw [hu, Nat.zero_mul, Nat.zero_add])

/-- The reshape and the axis-1 broadcast of a vector to a one-row array are one array. -/
theorem row_cast_eq_bcast {α : Type} (v : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    broadcastInDim ⟨2, ![1, N]⟩ ![1] h' v = shapeCast ⟨2, ![1, N]⟩ v h := by
  funext i
  obtain ⟨u, c, rfl⟩ : ∃ (u : Fin 1) (c : Fin N), i = ix2 u c := ⟨i 0, i 1, eq_ix2 i⟩
  rw [Cert.LibHostBroadcast.vec_to_row, row_of_vector_cast]

/-! ## The exponential linear unit -/

/-- y where y > 0 answers 1, e^y − 1 elsewhere. -/
def elu (y : Ideal .f32) : Ideal .f32 :=
  Scalar.select (FloatOps.cmpf .ogt y (Ideal.ofBits .f32 0x00000000#32)) y (Ideal.exp y - Ideal.ofBits .f32 0x3F800000#32)

/-- The kernel's spelling. -/
theorem elu_of_where {s : Shape} (y : FVec Ideal s .f32) :
    select (cmpf .ogt y (broadcast s (Scalar.ofBits (F := Ideal) .f32 0x00000000#32))) y
      (subf (exp y) (broadcast s (Scalar.ofBits (F := Ideal) .f32 0x3F800000#32)))
      = fun i => elu (y i) := rfl

/-- The host's spelling. -/
theorem elu_of_expm1 {s : Shape} (y : FVec Ideal s .f32)
    (h0 : (⟨0, ![]⟩ : Shape).BroadcastsInDim s (![] : Fin 0 → Fin s.rank)) :
    select (cmpf .ogt y (broadcastInDim s ![] h0 (constant (F := Ideal) ⟨0, ![]⟩ .f32 0x00000000#32))) y
      (mulf (broadcastInDim s ![] h0 (constant (F := Ideal) ⟨0, ![]⟩ .f32 0x3F800000#32))
        (Host.expm1 (select (cmpf .ogt y (broadcastInDim s ![] h0 (constant (F := Ideal) ⟨0, ![]⟩ .f32 0x00000000#32)))
          (broadcastInDim s ![] h0 (id (constant (F := Ideal) ⟨0, ![]⟩ .f32 0x00000000#32))) y)))
      = fun i => elu (y i) := by
  funext i
  have hz : broadcastInDim s ![] h0 (constant (F := Ideal) ⟨0, ![]⟩ .f32 0x00000000#32) i = Ideal.ofBits .f32 0x00000000#32 :=
    Cert.LibHostBroadcast.scalar_to_any _ h0 i
  have ho : broadcastInDim s ![] h0 (constant (F := Ideal) ⟨0, ![]⟩ .f32 0x3F800000#32) i = Ideal.ofBits .f32 0x3F800000#32 :=
    Cert.LibHostBroadcast.scalar_to_any _ h0 i
  rw [select_apply, cmpf_apply, hz, mulf_apply, ho]
  show Scalar.select _ (y i) (Ideal.ofBits .f32 0x3F800000#32 * (Ideal.exp (select _ _ y i) - 1)) = elu (y i)
  rw [select_apply, cmpf_apply, hz]
  unfold elu
  rcases BitVec.eq_zero_or_eq_one (FloatOps.cmpf (F := Ideal) .ogt (y i) (Ideal.ofBits .f32 0x00000000#32)) with hc | hc
  · rw [hc, select_zero, select_zero, select_zero, Cert.LibSpellings.ofBits_one_f32, one_mul]
  · rw [hc, select_one, select_one]

end Cert.LibEluStage

end
-- ==== Proof.Region0.lean ====
/-
  Layer 0 of the network as the kernel computes it: the array the first pallas_call leaves.

  The call tiles the 100000 rows of the gathered activations g (100000 × 384) into 50 blocks of 2000 rows; the weight w
  (384 × 64) and the bias row b (1 × 64) are whole blocks at every grid point. At point t the body stores, for the rows
  2000·t … 2000·t + 1999, the product of the block with w plus the bias row, then the exponential linear unit. A row of that product depends on g only
  through the same row of g, so block t of the result is block t of ONE whole-array function, layer0:
  entry (r, c) is elu(Σ_k g(r,k)·w(k,c) + b(0,c)). The 50 blocks tile the result (row r lies in block r / 2000), so the array
  ends at layer0 of the arrays the call found.
-/
import proofs.«172248_j11819749998924_1_alg».proof.Proof.Gen.KernelIdeal.Frame
import proofs.«172248_j11819749998924_1_alg».proof.Proof.LibEluStage
import Idealize.ShloMosaic.Lib.Pipeline.Value
import Idealize.ShloMosaic.Lib.ValueIdx

set_option maxRecDepth 16384

noncomputable section

namespace Cert.KernelIdeal.Spiral

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz0 : (![0, 0] : Fin 2 → Nat) = fun _ => 0 := funext fun a => by fin_cases a <;> rfl

/-- Layer 0 as one function of the arrays the call finds: entry (r, c) is elu(Σ_k g(r,k)·w(k,c) + b(0,c)). -/
def layer0 (g : FVec Ideal S100000x384 .f32) (w : FVec Ideal S384x64 .f32) (b : FVec Ideal S1x64 .f32) : FVec Ideal S100000x64 .f32 :=
  fun i => Cert.LibEluStage.elu (Cert.LibEluStage.affine 100000 384 64 g w b i)

/-- The printed dimension numbers are those of a plain 2000×384 by 384×64 product. -/
theorem dot0_eq : dot_S2000x384_S384x64_S2000x64_1_0_0_1_n_n = DotDims.plain 2000 384 64 := rfl

/-- The body's product plus bias row is the affine stage of its three loaded blocks. -/
theorem aff0 (x0 : Vec Ideal S2000x384 .f32) (x1 : Vec Ideal S384x64 .f32) (x2 : Vec Ideal S1x64 .f32) :
    addf (matmul (F := Ideal) dot_S2000x384_S384x64_S2000x64_1_0_0_1_n_n none
        (truncf .bf16 (shapeCast S2000x384 x0 Facts₀.shapeCasts_S2000x384_S2000x384) Facts₀.bitsLt_bf16_f32) (truncf .bf16 x1 Facts₀.bitsLt_bf16_f32) (constant S2000x64 .f32 0x00000000#32))
      (broadcastTo S2000x64 (shapeCast S1x64 x2 Facts₀.shapeCasts_S1x64_S1x64) Facts₀.broadcasts_S1x64_S2000x64)
      = Cert.LibEluStage.affine 2000 384 64 x0 x1 x2 := by
  rw [shapeCast_self, dot0_eq]
  exact Cert.LibEluStage.affine_of_matmul 2000 384 64 x0 x1 x2 _ _ _ _

/-- What the body stores, entry by entry. -/
theorem pay0_eq (x0 : Vec Ideal S2000x384 .f32) (x1 : Vec Ideal S384x64 .f32) (x2 : Vec Ideal S1x64 .f32) :
    k0_pay1 (F := Ideal) x0 x1 x2 = fun i => Cert.LibEluStage.elu (Cert.LibEluStage.affine 2000 384 64 x0 x1 x2 i) := by
  unfold k0_pay1
  exact (Cert.LibEluStage.elu_of_where _).trans (funext fun i => congrArg Cert.LibEluStage.elu (congrFun (aff0 x0 x1 x2) i))

variable (V : (c : Dev nD) → (b : Ref sig .tc) → Buf (Elt Ideal) ((c : Thread nD τ).loc b))

/-- The printed index maps over the grid: the activations' and the result's blocks move down with the point, the weight's
    and the bias row's stay at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of a block's stage is the matching row of the whole array's: the stage reads the activations only in that row. -/
theorem layer0_block (G : FVec Ideal S100000x384 .f32) (W : FVec Ideal S384x64 .f32) (B : FVec Ideal S1x64 .f32)
    (x0 : FVec Ideal S2000x384 .f32) (x1 : FVec Ideal S384x64 .f32) (x2 : FVec Ideal S1x64 .f32)
    (j : S2000x64.Idx) (i : S100000x64.Idx)
    (h0 : ∀ k : Fin 384, x0 (ix2 (j 0) k) = G (ix2 (i 0) k)) (h1 : x1 = W) (h2 : x2 = B) (hq : i 1 = j 1) :
    Cert.LibEluStage.elu (Cert.LibEluStage.affine 2000 384 64 x0 x1 x2 j) = layer0 G W B i := by
  subst h1 h2
  unfold layer0 Cert.LibEluStage.affine
  rw [hq]
  exact congrArg (fun s => Cert.LibEluStage.elu (s + x2 (ix2 (0 : Fin 1) (j 1)))) (Finset.sum_congr rfl fun k _ => by rw [h0 k])

/-- What point t writes back is block t of layer0 of the arrays the call found. -/
theorem flushed0_eq (c : Dev nD) (t : Fin cfg0.N) :
    (dat0 V c).flushed 3 t = ((cfg0.win 3).blk t).view.read (Elt Ideal) (layer0 (V c main_v2) (V c main_arg2) (V c main_v3)) := by
  show (cfg0.win 3).cut (grid0.coords t) ((dat0 V c).after 3 t) = _
  rw [after0_3]
  unfold out0_3
  rw [View.canon_unit_zero hz0]
  simp only [View.ld_unit_zero (S := S2000x384) hz0, View.ld_unit_zero (S := S384x64) hz0, View.ld_unit_zero (S := S1x64) hz0]
  rw [pay0_eq]
  obtain ⟨e0, e1, e2, e3, e4, e5, e6, e7⟩ := idx_facts0 t
  funext j
  show Cert.LibEluStage.elu (Cert.LibEluStage.affine 2000 384 64 (iblk0 V c 0 t) (iblk0 V c 1 t) (iblk0 V c 2 t) j)
    = layer0 (V c main_v2) (V c main_arg2) (V c main_v3) (((cfg0.win 3).blk t).view.emb j)
  have h0 : ∀ k : Fin 384, iblk0 V c 0 t (ix2 (j 0) k) = (V c main_v2 : S100000x384.Idx → EReal) (ix2 ((((cfg0.win 3).blk t).view.emb j) 0) k) := by
    intro k
    show V c main_v2 (((cfg0.win 0).blk t).view.emb (ix2 (j 0) k)) = V c main_v2 (ix2 ((((cfg0.win 3).blk t).view.emb j) 0) k)
    refine congrArg (V c main_v2) ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 384 + 1 * k.val = k.val; omega
  have h1 : iblk0 V c 1 t = (V c main_arg2 : S384x64.Idx → EReal) := by
    funext y
    show V c main_arg2 (((cfg0.win 1).blk t).view.emb y) = V c main_arg2 y
    refine congrArg (V c main_arg2) ?_
    funext a; apply Fin.ext
    match a with
    | ⟨0, _⟩ => show win0_1.index t (0 : Fin 2) * 384 + 1 * (y 0).val = (y 0).val; omega
    | ⟨1, _⟩ => show win0_1.index t (1 : Fin 2) * 64 + 1 * (y 1).val = (y 1).val; omega
  have h2 : iblk0 V c 2 t = (V c main_v3 : S1x64.Idx → EReal) := by
    funext y
    show V c main_v3 (((cfg0.win 2).blk t).view.emb y) = V c main_v3 y
    refine congrArg (V c main_v3) ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  have hq : (((cfg0.win 3).blk t).view.emb j) 1 = j 1 := by
    apply Fin.ext
    show win0_3.index t (1 : Fin 2) * 64 + 1 * (j 1).val = (j 1).val; omega
  exact layer0_block (V c main_v2) (V c main_arg2) (V c main_v3) (iblk0 V c 0 t) (iblk0 V c 1 t) (iblk0 V c 2 t) j
    (((cfg0.win 3).blk t).view.emb j) h0 h1 h2 hq

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v4).slice (win0_3.rect t)).set ↔ _
  rw [View.set_slice_whole, Rect.mem_set_unit]
  exact Iff.rfl

/-- Row r of the result lies in the block of point r / 2000: the 50 blocks tile the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, e6, e7⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val ∧ (i 1).val < win0_3.index ⟨(i 0).val / 2000, ht⟩ (1 : Fin 2) * 64 + 64
    rw [e7]; omega

/-- The array the call leaves: layer0 of the arrays it found. -/
theorem final0 (c : Dev nD) : (dat0 V c).arrAt 3 cfg0.N = layer0 (V c main_v2) (V c main_arg2) (V c main_v3) :=
  (dat0 V c).arrAt_eq_of_cover 3 _ (fun t _ => flushed0_eq V c t) cover0

end Cert.KernelIdeal.Spiral

end
-- ==== Proof.Region1.lean ====
/-
  Layer 1 of the network as the kernel computes it: the array the second pallas_call leaves.

  The call tiles the 100000 rows of the gathered activations g (100000 × 768) into 50 blocks of 2000 rows; the weight w
  (768 × 64) and the bias row b (1 × 64) are whole blocks at every grid point. At point t the body stores, for the rows
  2000·t … 2000·t + 1999, the product of the block with w plus the bias row, then the exponential linear unit. A row of that product depends on g only
  through the same row of g, so block t of the result is block t of ONE whole-array function, layer1:
  entry (r, c) is elu(Σ_k g(r,k)·w(k,c) + b(0,c)). The 50 blocks tile the result (row r lies in block r / 2000), so the array
  ends at layer1 of the arrays the call found.
-/
import proofs.«172248_j11819749998924_1_alg».proof.Proof.Gen.KernelIdeal.Frame
import proofs.«172248_j11819749998924_1_alg».proof.Proof.LibEluStage
import Idealize.ShloMosaic.Lib.Pipeline.Value
import Idealize.ShloMosaic.Lib.ValueIdx

set_option maxRecDepth 16384

noncomputable section

namespace Cert.KernelIdeal.Spiral

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz1 : (![0, 0] : Fin 2 → Nat) = fun _ => 0 := funext fun a => by fin_cases a <;> rfl

/-- Layer 1 as one function of the arrays the call finds: entry (r, c) is elu(Σ_k g(r,k)·w(k,c) + b(0,c)). -/
def layer1 (g : FVec Ideal S100000x768 .f32) (w : FVec Ideal S768x64 .f32) (b : FVec Ideal S1x64 .f32) : FVec Ideal S100000x64 .f32 :=
  fun i => Cert.LibEluStage.elu (Cert.LibEluStage.affine 100000 768 64 g w b i)

/-- The printed dimension numbers are those of a plain 2000×768 by 768×64 product. -/
theorem dot1_eq : dot_S2000x768_S768x64_S2000x64_1_0_0_1_n_n = DotDims.plain 2000 768 64 := rfl

/-- The body's product plus bias row is the affine stage of its three loaded blocks. -/
theorem aff1 (x0 : Vec Ideal S2000x768 .f32) (x1 : Vec Ideal S768x64 .f32) (x2 : Vec Ideal S1x64 .f32) :
    addf (matmul (F := Ideal) dot_S2000x768_S768x64_S2000x64_1_0_0_1_n_n none
        (truncf .bf16 (shapeCast S2000x768 x0 Facts₀.shapeCasts_S2000x768_S2000x768) Facts₀.bitsLt_bf16_f32) (truncf .bf16 x1 Facts₀.bitsLt_bf16_f32) (constant S2000x64 .f32 0x00000000#32))
      (broadcastTo S2000x64 (shapeCast S1x64 x2 Facts₀.shapeCasts_S1x64_S1x64) Facts₀.broadcasts_S1x64_S2000x64)
      = Cert.LibEluStage.affine 2000 768 64 x0 x1 x2 := by
  rw [shapeCast_self, dot1_eq]
  exact Cert.LibEluStage.affine_of_matmul 2000 768 64 x0 x1 x2 _ _ _ _

/-- What the body stores, entry by entry. -/
theorem pay1_eq (x0 : Vec Ideal S2000x768 .f32) (x1 : Vec Ideal S768x64 .f32) (x2 : Vec Ideal S1x64 .f32) :
    k1_pay1 (F := Ideal) x0 x1 x2 = fun i => Cert.LibEluStage.elu (Cert.LibEluStage.affine 2000 768 64 x0 x1 x2 i) := by
  unfold k1_pay1
  exact (Cert.LibEluStage.elu_of_where _).trans (funext fun i => congrArg Cert.LibEluStage.elu (congrFun (aff1 x0 x1 x2) i))

variable (V : (c : Dev nD) → (b : Ref sig .tc) → Buf (Elt Ideal) ((c : Thread nD τ).loc b))

/-- The printed index maps over the grid: the activations' and the result's blocks move down with the point, the weight's
    and the bias row's stay at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row of a block's stage is the matching row of the whole array's: the stage reads the activations only in that row. -/
theorem layer1_block (G : FVec Ideal S100000x768 .f32) (W : FVec Ideal S768x64 .f32) (B : FVec Ideal S1x64 .f32)
    (x0 : FVec Ideal S2000x768 .f32) (x1 : FVec Ideal S768x64 .f32) (x2 : FVec Ideal S1x64 .f32)
    (j : S2000x64.Idx) (i : S100000x64.Idx)
    (h0 : ∀ k : Fin 768, x0 (ix2 (j 0) k) = G (ix2 (i 0) k)) (h1 : x1 = W) (h2 : x2 = B) (hq : i 1 = j 1) :
    Cert.LibEluStage.elu (Cert.LibEluStage.affine 2000 768 64 x0 x1 x2 j) = layer1 G W B i := by
  subst h1 h2
  unfold layer1 Cert.LibEluStage.affine
  rw [hq]
  exact congrArg (fun s => Cert.LibEluStage.elu (s + x2 (ix2 (0 : Fin 1) (j 1)))) (Finset.sum_congr rfl fun k _ => by rw [h0 k])

/-- What point t writes back is block t of layer1 of the arrays the call found. -/
theorem flushed1_eq (c : Dev nD) (t : Fin cfg1.N) :
    (dat1 V c).flushed 3 t = ((cfg1.win 3).blk t).view.read (Elt Ideal) (layer1 (V c main_v6) (V c main_arg4) (V c main_v7)) := by
  show (cfg1.win 3).cut (grid1.coords t) ((dat1 V c).after 3 t) = _
  rw [after1_3]
  unfold out1_3
  rw [View.canon_unit_zero hz1]
  simp only [View.ld_unit_zero (S := S2000x768) hz1, View.ld_unit_zero (S := S768x64) hz1, View.ld_unit_zero (S := S1x64) hz1]
  rw [pay1_eq]
  obtain ⟨e0, e1, e2, e3, e4, e5, e6, e7⟩ := idx_facts1 t
  funext j
  show Cert.LibEluStage.elu (Cert.LibEluStage.affine 2000 768 64 (iblk1 V c 0 t) (iblk1 V c 1 t) (iblk1 V c 2 t) j)
    = layer1 (V c main_v6) (V c main_arg4) (V c main_v7) (((cfg1.win 3).blk t).view.emb j)
  have h0 : ∀ k : Fin 768, iblk1 V c 0 t (ix2 (j 0) k) = (V c main_v6 : S100000x768.Idx → EReal) (ix2 ((((cfg1.win 3).blk t).view.emb j) 0) k) := by
    intro k
    show V c main_v6 (((cfg1.win 0).blk t).view.emb (ix2 (j 0) k)) = V c main_v6 (ix2 ((((cfg1.win 3).blk t).view.emb j) 0) k)
    refine congrArg (V c main_v6) ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 768 + 1 * k.val = k.val; omega
  have h1 : iblk1 V c 1 t = (V c main_arg4 : S768x64.Idx → EReal) := by
    funext y
    show V c main_arg4 (((cfg1.win 1).blk t).view.emb y) = V c main_arg4 y
    refine congrArg (V c main_arg4) ?_
    funext a; apply Fin.ext
    match a with
    | ⟨0, _⟩ => show win1_1.index t (0 : Fin 2) * 768 + 1 * (y 0).val = (y 0).val; omega
    | ⟨1, _⟩ => show win1_1.index t (1 : Fin 2) * 64 + 1 * (y 1).val = (y 1).val; omega
  have h2 : iblk1 V c 2 t = (V c main_v7 : S1x64.Idx → EReal) := by
    funext y
    show V c main_v7 (((cfg1.win 2).blk t).view.emb y) = V c main_v7 y
    refine congrArg (V c main_v7) ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  have hq : (((cfg1.win 3).blk t).view.emb j) 1 = j 1 := by
    apply Fin.ext
    show win1_3.index t (1 : Fin 2) * 64 + 1 * (j 1).val = (j 1).val; omega
  exact layer1_block (V c main_v6) (V c main_arg4) (V c main_v7) (iblk1 V c 0 t) (iblk1 V c 1 t) (iblk1 V c 2 t) j
    (((cfg1.win 3).blk t).view.emb j) h0 h1 h2 hq

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v8).slice (win1_3.rect t)).set ↔ _
  rw [View.set_slice_whole, Rect.mem_set_unit]
  exact Iff.rfl

/-- Row r of the result lies in the block of point r / 2000: the 50 blocks tile the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨-, -, -, -, -, -, e6, e7⟩ := idx_facts1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 64 ≤ (i 1).val ∧ (i 1).val < win1_3.index ⟨(i 0).val / 2000, ht⟩ (1 : Fin 2) * 64 + 64
    rw [e7]; omega

/-- The array the call leaves: layer1 of the arrays it found. -/
theorem final1 (c : Dev nD) : (dat1 V c).arrAt 3 cfg1.N = layer1 (V c main_v6) (V c main_arg4) (V c main_v7) :=
  (dat1 V c).arrAt_eq_of_cover 3 _ (fun t _ => flushed1_eq V c t) cover1

end Cert.KernelIdeal.Spiral

end
-- ==== Proof.Region2.lean ====
/-
  Layer 2 of the network as the kernel computes it: the array the third pallas_call leaves.

  The call tiles the 100000 rows of the gathered activations g (100000 × 768) into 50 blocks of 2000 rows; the weight w
  (768 × 32) and the bias row b (1 × 32) are whole blocks at every grid point. At point t the body stores, for the rows
  2000·t … 2000·t + 1999, the product of the block with w plus the bias row. A row of that product depends on g only
  through the same row of g, so block t of the result is block t of ONE whole-array function, layer2:
  entry (r, c) is Σ_k g(r,k)·w(k,c) + b(0,c) (the last layer has no activation). The 50 blocks tile the result (row r lies in block r / 2000), so the array
  ends at layer2 of the arrays the call found.
-/
import proofs.«172248_j11819749998924_1_alg».proof.Proof.Gen.KernelIdeal.Frame
import proofs.«172248_j11819749998924_1_alg».proof.Proof.LibEluStage
import Idealize.ShloMosaic.Lib.Pipeline.Value
import Idealize.ShloMosaic.Lib.ValueIdx

set_option maxRecDepth 16384

noncomputable section

namespace Cert.KernelIdeal.Spiral

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl

/-- Layer 2 as one function of the arrays the call finds: entry (r, c) is Σ_k g(r,k)·w(k,c) + b(0,c) (the last layer has no activation). -/
def layer2 (g : FVec Ideal S100000x768 .f32) (w : FVec Ideal S768x32 .f32) (b : FVec Ideal S1x32 .f32) : FVec Ideal S100000x32 .f32 :=
  fun i => Cert.LibEluStage.affine 100000 768 32 g w b i

/-- The printed dimension numbers are those of a plain 2000×768 by 768×32 product. -/
theorem dot2_eq : dot_S2000x768_S768x32_S2000x32_1_0_0_1_n_n = DotDims.plain 2000 768 32 := rfl

/-- The body's product plus bias row is the affine stage of its three loaded blocks. -/
theorem aff2 (x0 : Vec Ideal S2000x768 .f32) (x1 : Vec Ideal S768x32 .f32) (x2 : Vec Ideal S1x32 .f32) :
    addf (matmul (F := Ideal) dot_S2000x768_S768x32_S2000x32_1_0_0_1_n_n none
        (truncf .bf16 (shapeCast S2000x768 x0 Facts₀.shapeCasts_S2000x768_S2000x768) Facts₀.bitsLt_bf16_f32) (truncf .bf16 x1 Facts₀.bitsLt_bf16_f32) (constant S2000x32 .f32 0x00000000#32))
      (broadcastTo S2000x32 (shapeCast S1x32 x2 Facts₀.shapeCasts_S1x32_S1x32) Facts₀.broadcasts_S1x32_S2000x32)
      = Cert.LibEluStage.affine 2000 768 32 x0 x1 x2 := by
  rw [shapeCast_self, dot2_eq]
  exact Cert.LibEluStage.affine_of_matmul 2000 768 32 x0 x1 x2 _ _ _ _

/-- What the body stores, entry by entry. -/
theorem pay2_eq (x0 : Vec Ideal S2000x768 .f32) (x1 : Vec Ideal S768x32 .f32) (x2 : Vec Ideal S1x32 .f32) :
    k2_pay1 (F := Ideal) x0 x1 x2 = fun i => Cert.LibEluStage.affine 2000 768 32 x0 x1 x2 i := by
  unfold k2_pay1
  exact aff2 x0 x1 x2

variable (V : (c : Dev nD) → (b : Ref sig .tc) → Buf (Elt Ideal) ((c : Thread nD τ).loc b))

/-- The printed index maps over the grid: the activations' and the result's blocks move down with the point, the weight's
    and the bias row's stay at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A row of a block's stage is the matching row of the whole array's: the stage reads the activations only in that row. -/
theorem layer2_block (G : FVec Ideal S100000x768 .f32) (W : FVec Ideal S768x32 .f32) (B : FVec Ideal S1x32 .f32)
    (x0 : FVec Ideal S2000x768 .f32) (x1 : FVec Ideal S768x32 .f32) (x2 : FVec Ideal S1x32 .f32)
    (j : S2000x32.Idx) (i : S100000x32.Idx)
    (h0 : ∀ k : Fin 768, x0 (ix2 (j 0) k) = G (ix2 (i 0) k)) (h1 : x1 = W) (h2 : x2 = B) (hq : i 1 = j 1) :
    Cert.LibEluStage.affine 2000 768 32 x0 x1 x2 j = layer2 G W B i := by
  subst h1 h2
  unfold layer2 Cert.LibEluStage.affine
  rw [hq]
  exact congrArg (fun s => s + x2 (ix2 (0 : Fin 1) (j 1))) (Finset.sum_congr rfl fun k _ => by rw [h0 k])

/-- What point t writes back is block t of layer2 of the arrays the call found. -/
theorem flushed2_eq (c : Dev nD) (t : Fin cfg2.N) :
    (dat2 V c).flushed 3 t = ((cfg2.win 3).blk t).view.read (Elt Ideal) (layer2 (V c main_v10) (V c main_arg6) (V c main_v11)) := by
  show (cfg2.win 3).cut (grid2.coords t) ((dat2 V c).after 3 t) = _
  rw [after2_3]
  unfold out2_3
  rw [View.canon_unit_zero hz2]
  simp only [View.ld_unit_zero (S := S2000x768) hz2, View.ld_unit_zero (S := S768x32) hz2, View.ld_unit_zero (S := S1x32) hz2]
  rw [pay2_eq]
  obtain ⟨e0, e1, e2, e3, e4, e5, e6, e7⟩ := idx_facts2 t
  funext j
  show Cert.LibEluStage.affine 2000 768 32 (iblk2 V c 0 t) (iblk2 V c 1 t) (iblk2 V c 2 t) j
    = layer2 (V c main_v10) (V c main_arg6) (V c main_v11) (((cfg2.win 3).blk t).view.emb j)
  have h0 : ∀ k : Fin 768, iblk2 V c 0 t (ix2 (j 0) k) = (V c main_v10 : S100000x768.Idx → EReal) (ix2 ((((cfg2.win 3).blk t).view.emb j) 0) k) := by
    intro k
    show V c main_v10 (((cfg2.win 0).blk t).view.emb (ix2 (j 0) k)) = V c main_v10 (ix2 ((((cfg2.win 3).blk t).view.emb j) 0) k)
    refine congrArg (V c main_v10) ?_
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 768 + 1 * k.val = k.val; omega
  have h1 : iblk2 V c 1 t = (V c main_arg6 : S768x32.Idx → EReal) := by
    funext y
    show V c main_arg6 (((cfg2.win 1).blk t).view.emb y) = V c main_arg6 y
    refine congrArg (V c main_arg6) ?_
    funext a; apply Fin.ext
    match a with
    | ⟨0, _⟩ => show win2_1.index t (0 : Fin 2) * 768 + 1 * (y 0).val = (y 0).val; omega
    | ⟨1, _⟩ => show win2_1.index t (1 : Fin 2) * 32 + 1 * (y 1).val = (y 1).val; omega
  have h2 : iblk2 V c 2 t = (V c main_v11 : S1x32.Idx → EReal) := by
    funext y
    show V c main_v11 (((cfg2.win 2).blk t).view.emb y) = V c main_v11 y
    refine congrArg (V c main_v11) ?_
    funext a; apply Fin.ext
    match a with
    | ⟨0, _⟩ => show win2_2.index t (0 : Fin 2) * 1 + 1 * (y 0).val = (y 0).val; omega
    | ⟨1, _⟩ => show win2_2.index t (1 : Fin 2) * 32 + 1 * (y 1).val = (y 1).val; omega
  have hq : (((cfg2.win 3).blk t).view.emb j) 1 = j 1 := by
    apply Fin.ext
    show win2_3.index t (1 : Fin 2) * 32 + 1 * (j 1).val = (j 1).val; omega
  exact layer2_block (V c main_v10) (V c main_arg6) (V c main_v11) (iblk2 V c 0 t) (iblk2 V c 1 t) (iblk2 V c 2 t) j
    (((cfg2.win 3).blk t).view.emb j) h0 h1 h2 hq

/-- An index of the result array is in point t's block iff each coordinate is in the block's range on its axis. -/
theorem mem_blk2 (t : Fin cfg2.N) (i : S100000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v12).slice (win2_3.rect t)).set ↔ _
  rw [View.set_slice_whole, Rect.mem_set_unit]
  exact Iff.rfl

/-- Row r of the result lies in the block of point r / 2000: the 50 blocks tile the array. -/
theorem cover2 (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 50 := N_2
  have ht : (i 0).val / 2000 < cfg2.N := by rw [hN]; omega
  obtain ⟨-, -, -, -, -, -, e6, e7⟩ := idx_facts2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, ht⟩ (1 : Fin 2) * 32 ≤ (i 1).val ∧ (i 1).val < win2_3.index ⟨(i 0).val / 2000, ht⟩ (1 : Fin 2) * 32 + 32
    rw [e7]; omega

/-- The array the call leaves: layer2 of the arrays it found. -/
theorem final2 (c : Dev nD) : (dat2 V c).arrAt 3 cfg2.N = layer2 (V c main_v10) (V c main_arg6) (V c main_v11) :=
  (dat2 V c).arrAt_eq_of_cover 3 _ (fun t _ => flushed2_eq V c t) cover2

end Cert.KernelIdeal.Spiral

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.KernelValue.lean ====
/-
  The value of the idealized kernel program's result buffer, read through @main.

  @main alternates stretches of host operations with three pallas_calls. A stretch is read at its result buffers from
  ANY buffer contents V: a reshape's result is the operand recast; the 23-operation gather stretch's result is take (the
  gathered rows of the table's buffer, at the row numbers in the index argument's buffer); a buffer no operation of the
  stretch writes keeps its contents. A pallas_call leaves its result window's array at its layer function of the arrays
  it found (the three layer modules) and every other buffer as it was. Composing these along @main, the result buffer
  ends at the network function net of the eight argument arrays:
      net = broadcast (layer2 (flat (take64 (layer1 (flat (take64 (layer0 (flat (take32 x' idx)) W0 b0')) idx)) W1 b1')) idx)) W2 b2')
  with x' the input recast to [100000, 32], flat the recast [100000, 12, C] → [100000, 12·C], and b' the bias recast to a row.
-/
import proofs.«172248_j11819749998924_1_alg».proof.Proof.Gen.KernelIdeal.Frame
import proofs.«172248_j11819749998924_1_alg».proof.Proof.Region0
import proofs.«172248_j11819749998924_1_alg».proof.Proof.Region1
import proofs.«172248_j11819749998924_1_alg».proof.Proof.Region2
import proofs.«172248_j11819749998924_1_alg».proof.Proof.LibTypedRefs
import Idealize.ShloMosaic.Lib.StableHlo.Run

set_option maxRecDepth 16384

noncomputable section

namespace Cert.KernelIdeal.Spiral

open Idealize.ShloMosaic Idealize.ShloMosaic.TcCoe Idealize.ShloMosaic.ValueIdx Idealize.ShloMosaic.StableHlo
open Idealize.SL.Sem
open Cert.KernelIdeal Cert.KernelIdeal.Gen

/-- A row number as the gather takes it: a negative index counts from the end (100000 is added), and the
    [100000, 12] array of numbers becomes a [100000, 12, 1] array of one-entry index vectors. -/
def rowIdx (idx : IVec S100000x12 32) : IVec S100000x12x1 32 :=
  broadcastInDim S100000x12x1 ![0, 1] Facts₀.bcast_S100000x12_S100000x12x1_0_1
    (select (cmpi .slt idx (broadcastInDim S100000x12 ![] Facts₀.bcast_S_S100000x12 (constantI S_ 32 0#32)))
      (addi idx (broadcastInDim S100000x12 ![] Facts₀.bcast_S_S100000x12 (constantI S_ 32 100000#32))) idx)

/-- Whether the row number lies in 0 … 99999. -/
def inRange (idx : IVec S100000x12 32) : IVec S100000x12 1 :=
  Host.reduce IntOp.andi
    (andi (cmpi .sge (rowIdx idx) (broadcastInDim S100000x12x1 ![] Facts₀.bcast_S_S100000x12x1 (constantI S_ 32 0#32)))
      (cmpi .sle (rowIdx idx) (broadcastInDim S100000x12x1 ![0, 1, 2] Facts₀.bcast_S1x1x1_S100000x12x1_0_1_2
        (broadcastInDim S1x1x1 ![2] Facts₀.bcast_S1_S1x1x1_2 (constantI S1 32 99999#32)))))
    (constantI S_ 1 1#1) Facts₀.reducesTo_S100000x12x1_S100000x12_d2 Facts₀.h_S_

/-- The twelve gathered rows of a 32-column table per vertex: row idx(n, s) where that number is in range, the
    fill word elsewhere. -/
def take32 (h : FVec Ideal S100000x32 .f32) (idx : IVec S100000x12 32) : FVec Ideal S100000x12x32 .f32 :=
  select (broadcastInDim S100000x12x32 ![0, 1] Facts₀.bcast_S100000x12_S100000x12x32_0_1 (inRange idx))
    (Host.gather gather_S100000x32_S100000x12x1_S100000x12x32_2_0_n_n_0_2_132 h (rowIdx idx))
    (broadcastInDim S100000x12x32 ![] Facts₀.bcast_S_S100000x12x32 (constant S_ .f32 0x7FC00000#32))

/-- The same of a 64-column table. -/
def take64 (h : FVec Ideal S100000x64 .f32) (idx : IVec S100000x12 32) : FVec Ideal S100000x12x64 .f32 :=
  select (broadcastInDim S100000x12x64 ![0, 1] Facts₀.bcast_S100000x12_S100000x12x64_0_1 (inRange idx))
    (Host.gather gather_S100000x64_S100000x12x1_S100000x12x64_2_0_n_n_0_2_164 h (rowIdx idx))
    (broadcastInDim S100000x12x64 ![] Facts₀.bcast_S_S100000x12x64 (constant S_ .f32 0x7FC00000#32))

/-! ## The network as one function of the argument arrays -/

/-- The first layer's input: the twelve gathered rows of the input per vertex, laid side by side. -/
def act0 (x : FVec Ideal S100000x32x1 .f32) (idx : IVec S100000x12 32) : FVec Ideal S100000x384 .f32 :=
  shapeCast S100000x384 (take32 (shapeCast S100000x32 x Facts₀.shapeCasts_S100000x32x1_S100000x32) idx) Facts₀.shapeCasts_S100000x12x32_S100000x384
/-- The first hidden layer. -/
def hid1 (x : FVec Ideal S100000x32x1 .f32) (idx : IVec S100000x12 32) (W0 : FVec Ideal S384x64 .f32) (b0 : FVec Ideal S64 .f32) : FVec Ideal S100000x64 .f32 :=
  layer0 (act0 x idx) W0 (shapeCast S1x64 b0 Facts₀.shapeCasts_S64_S1x64)
/-- A hidden layer's twelve gathered rows per vertex, laid side by side. -/
def flat64 (h : FVec Ideal S100000x64 .f32) (idx : IVec S100000x12 32) : FVec Ideal S100000x768 .f32 :=
  shapeCast S100000x768 (take64 h idx) Facts₀.shapeCasts_S100000x12x64_S100000x768
/-- The second hidden layer. -/
def hid2 (x : FVec Ideal S100000x32x1 .f32) (idx : IVec S100000x12 32) (W0 : FVec Ideal S384x64 .f32) (b0 : FVec Ideal S64 .f32)
    (W1 : FVec Ideal S768x64 .f32) (b1 : FVec Ideal S64 .f32) : FVec Ideal S100000x64 .f32 :=
  layer1 (flat64 (hid1 x idx W0 b0) idx) W1 (shapeCast S1x64 b1 Facts₀.shapeCasts_S64_S1x64)
/-- The output layer (no activation). -/
def hid3 (x : FVec Ideal S100000x32x1 .f32) (idx : IVec S100000x12 32) (W0 : FVec Ideal S384x64 .f32) (b0 : FVec Ideal S64 .f32)
    (W1 : FVec Ideal S768x64 .f32) (b1 : FVec Ideal S64 .f32) (W2 : FVec Ideal S768x32 .f32) (b2 : FVec Ideal S32 .f32) : FVec Ideal S100000x32 .f32 :=
  layer2 (flat64 (hid2 x idx W0 b0 W1 b1) idx) W2 (shapeCast S1x32 b2 Facts₀.shapeCasts_S32_S1x32)
/-- The network: the output layer with a trailing unit axis. -/
def net (x : FVec Ideal S100000x32x1 .f32) (idx : IVec S100000x12 32) (W0 : FVec Ideal S384x64 .f32) (b0 : FVec Ideal S64 .f32)
    (W1 : FVec Ideal S768x64 .f32) (b1 : FVec Ideal S64 .f32) (W2 : FVec Ideal S768x32 .f32) (b2 : FVec Ideal S32 .f32) : FVec Ideal S100000x32x1 .f32 :=
  broadcastInDim S100000x32x1 ![0, 1] Facts₀.bcast_S100000x32_S100000x32x1_0_1 (hid3 x idx W0 b0 W1 b1 W2 b2)

/-! ## The host stretches, from any buffer contents -/

/-- No operation of a literal line writes the buffer: each operation's written buffer is another reference. -/
local macro "not_written" : tactic => `(tactic| (
  refine List.forall_iff_forall_mem.mp ?_
  simp only [hostOps0, hostOps0_1, hostOps0_2, hostOps1, hostOps1_1, hostOps2, hostOps2_1, hostOps3, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

theorem kept_hostOps0_main_arg1 (V : Valuation τ sig (Elt Ideal)) : StableHlo.after hostOps0 V (main_arg1 : DevRef τ sig) = V (main_arg1 : DevRef τ sig) :=
  StableHlo.after_of_forall_not_mem hostOps0 V (by not_written)
theorem kept_hostOps0_main_arg2 (V : Valuation τ sig (Elt Ideal)) : StableHlo.after hostOps0 V (main_arg2 : DevRef τ sig) = V (main_arg2 : DevRef τ sig) :=
  StableHlo.after_of_forall_not_mem hostOps0 V (by not_written)
theorem kept_hostOps0_main_arg3 (V : Valuation τ sig (Elt Ideal)) : StableHlo.after hostOps0 V (main_arg3 : DevRef τ sig) = V (main_arg3 : DevRef τ sig) :=
  StableHlo.after_of_forall_not_mem hostOps0 V (by not_written)
theorem kept_hostOps0_main_arg4 (V : Valuation τ sig (Elt Ideal)) : StableHlo.after hostOps0 V (main_arg4 : DevRef τ sig) = V (main_arg4 : DevRef τ sig) :=
  StableHlo.after_of_forall_not_mem hostOps0 V (by not_written)
theorem kept_hostOps0_main_arg5 (V : Valuation τ sig (Elt Ideal)) : StableHlo.after hostOps0 V (main_arg5 : DevRef τ sig) = V (main_arg5 : DevRef τ sig) :=
  StableHlo.after_of_forall_not_mem hostOps0 V (by not_written)
theorem kept_hostOps0_main_arg6 (V : Valuation τ sig (Elt Ideal)) : StableHlo.after hostOps0 V (main_arg6 : DevRef τ sig) = V (main_arg6 : DevRef τ sig) :=
  StableHlo.after_of_forall_not_mem hostOps0 V (by not_written)
theorem kept_hostOps0_main_arg7 (V : Valuation τ sig (Elt Ideal)) : StableHlo.after hostOps0 V (main_arg7 : DevRef τ sig) = V (main_arg7 : DevRef τ sig) :=
  StableHlo.after_of_forall_not_mem hostOps0 V (by not_written)
theorem kept_hostOps0_1_main_arg1 (V : Valuation τ sig (Elt Ideal)) : StableHlo.after hostOps0_1 V (main_arg1 : DevRef τ sig) = V (main_arg1 : DevRef τ sig) :=
  StableHlo.after_of_forall_not_mem hostOps0_1 V (by not_written)
theorem kept_hostOps0_1_main_arg2 (V : Valuation τ sig (Elt Ideal)) : StableHlo.after hostOps0_1 V (main_arg2 : DevRef τ sig) = V (main_arg2 : DevRef τ sig) :=
  StableHlo.after_of_forall_not_mem hostOps0_1 V (by not_written)
theorem kept_hostOps0_1_main_arg3 (V : Valuation τ sig (Elt Ideal)) : StableHlo.after hostOps0_1 V (main_arg3 : DevRef τ sig) = V (main_arg3 : DevRef τ sig) :=
  StableHlo.after_of_forall_not_mem hostOps0_1 V (by not_written)
theorem kept_hostOps0_1_main_arg4 (V : Valuation τ sig (Elt Ideal)) : StableHlo.after hostOps0_1 V (main_arg4 : DevRef τ sig) = V (main_arg4 : DevRef τ sig) :=
  StableHlo.after_of_forall_not_mem hostOps0_1 V (by not_written)
theorem kept_hostOps0_1_main_arg5 (V : Valuation τ sig (Elt Ideal)) : StableHlo.after hostOps0_1 V (main_arg5 : DevRef τ sig) = V (main_arg5 : DevRef τ sig) :=
  StableHlo.after_of_forall_not_mem hostOps0_1 V (by not_written)
theorem kept_hostOps0_1_main_arg6 (V : Valuation τ sig (Elt Ideal)) : StableHlo.after hostOps0_1 V (main_arg6 : DevRef τ sig) = V (main_arg6 : DevRef τ sig) :=
  StableHlo.after_of_forall_not_mem hostOps0_1 V (by not_written)
theorem kept_hostOps0_1_main_arg7 (V : Valuation τ sig (Elt Ideal)) : StableHlo.after hostOps0_1 V (main_arg7 : DevRef τ sig) = V (main_arg7 : DevRef τ sig) :=
  StableHlo.after_of_forall_not_mem hostOps0_1 V (by not_written)
theorem kept_hostOps0_2_main_arg1 (V : Valuation τ sig (Elt Ideal)) : StableHlo.after hostOps0_2 V (main_arg1 : DevRef τ sig) = V (main_arg1 : DevRef τ sig) :=
  StableHlo.after_of_forall_not_mem hostOps0_2 V (by not_written)
theorem kept_hostOps0_2_main_arg2 (V : Valuation τ sig (Elt Ideal)) : StableHlo.after hostOps0_2 V (main_arg2 : DevRef τ sig) = V (main_arg2 : DevRef τ sig) :=
  StableHlo.after_of_forall_not_mem hostOps0_2 V (by not_written)
theorem kept_hostOps0_2_main_arg4 (V : Valuation τ sig (Elt Ideal)) : StableHlo.after hostOps0_2 V (main_arg4 : DevRef τ sig) = V (main_arg4 : DevRef τ sig) :=
  StableHlo.after_of_forall_not_mem hostOps0_2 V (by not_written)
theorem kept_hostOps0_2_main_arg5 (V : Valuation τ sig (Elt Ideal)) : StableHlo.after hostOps0_2 V (main_arg5 : DevRef τ sig) = V (main_arg5 : DevRef τ sig) :=
  StableHlo.after_of_forall_not_mem hostOps0_2 V (by not_written)
theorem kept_hostOps0_2_main_arg6 (V : Valuation τ sig (Elt Ideal)) : StableHlo.after hostOps0_2 V (main_arg6 : DevRef τ sig) = V (main_arg6 : DevRef τ sig) :=
  StableHlo.after_of_forall_not_mem hostOps0_2 V (by not_written)
theorem kept_hostOps0_2_main_arg7 (V : Valuation τ sig (Elt Ideal)) : StableHlo.after hostOps0_2 V (main_arg7 : DevRef τ sig) = V (main_arg7 : DevRef τ sig) :=
  StableHlo.after_of_forall_not_mem hostOps0_2 V (by not_written)
theorem kept_hostOps1_main_arg1 (V : Valuation τ sig (Elt Ideal)) : StableHlo.after hostOps1 V (main_arg1 : DevRef τ sig) = V (main_arg1 : DevRef τ sig) :=
  StableHlo.after_of_forall_not_mem hostOps1 V (by not_written)
theorem kept_hostOps1_main_arg4 (V : Valuation τ sig (Elt Ideal)) : StableHlo.after hostOps1 V (main_arg4 : DevRef τ sig) = V (main_arg4 : DevRef τ sig) :=
  StableHlo.after_of_forall_not_mem hostOps1 V (by not_written)
theorem kept_hostOps1_main_arg5 (V : Valuation τ sig (Elt Ideal)) : StableHlo.after hostOps1 V (main_arg5 : DevRef τ sig) = V (main_arg5 : DevRef τ sig) :=
  StableHlo.after_of_forall_not_mem hostOps1 V (by not_written)
theorem kept_hostOps1_main_arg6 (V : Valuation τ sig (Elt Ideal)) : StableHlo.after hostOps1 V (main_arg6 : DevRef τ sig) = V (main_arg6 : DevRef τ sig) :=
  StableHlo.after_of_forall_not_mem hostOps1 V (by not_written)
theorem kept_hostOps1_main_arg7 (V : Valuation τ sig (Elt Ideal)) : StableHlo.after hostOps1 V (main_arg7 : DevRef τ sig) = V (main_arg7 : DevRef τ sig) :=
  StableHlo.after_of_forall_not_mem hostOps1 V (by not_written)
theorem kept_hostOps1_1_main_arg1 (V : Valuation τ sig (Elt Ideal)) : StableHlo.after hostOps1_1 V (main_arg1 : DevRef τ sig) = V (main_arg1 : DevRef τ sig) :=
  StableHlo.after_of_forall_not_mem hostOps1_1 V (by not_written)
theorem kept_hostOps1_1_main_arg4 (V : Valuation τ sig (Elt Ideal)) : StableHlo.after hostOps1_1 V (main_arg4 : DevRef τ sig) = V (main_arg4 : DevRef τ sig) :=
  StableHlo.after_of_forall_not_mem hostOps1_1 V (by not_written)
theorem kept_hostOps1_1_main_arg6 (V : Valuation τ sig (Elt Ideal)) : StableHlo.after hostOps1_1 V (main_arg6 : DevRef τ sig) = V (main_arg6 : DevRef τ sig) :=
  StableHlo.after_of_forall_not_mem hostOps1_1 V (by not_written)
theorem kept_hostOps1_1_main_arg7 (V : Valuation τ sig (Elt Ideal)) : StableHlo.after hostOps1_1 V (main_arg7 : DevRef τ sig) = V (main_arg7 : DevRef τ sig) :=
  StableHlo.after_of_forall_not_mem hostOps1_1 V (by not_written)
theorem kept_hostOps2_main_arg1 (V : Valuation τ sig (Elt Ideal)) : StableHlo.after hostOps2 V (main_arg1 : DevRef τ sig) = V (main_arg1 : DevRef τ sig) :=
  StableHlo.after_of_forall_not_mem hostOps2 V (by not_written)
theorem kept_hostOps2_main_arg6 (V : Valuation τ sig (Elt Ideal)) : StableHlo.after hostOps2 V (main_arg6 : DevRef τ sig) = V (main_arg6 : DevRef τ sig) :=
  StableHlo.after_of_forall_not_mem hostOps2 V (by not_written)
theorem kept_hostOps2_main_arg7 (V : Valuation τ sig (Elt Ideal)) : StableHlo.after hostOps2 V (main_arg7 : DevRef τ sig) = V (main_arg7 : DevRef τ sig) :=
  StableHlo.after_of_forall_not_mem hostOps2 V (by not_written)
theorem kept_hostOps2_1_main_arg6 (V : Valuation τ sig (Elt Ideal)) : StableHlo.after hostOps2_1 V (main_arg6 : DevRef τ sig) = V (main_arg6 : DevRef τ sig) :=
  StableHlo.after_of_forall_not_mem hostOps2_1 V (by not_written)

theorem v0_read (V : Valuation τ sig (Elt Ideal)) :
    StableHlo.after hostOps0 V (main_v0 : DevRef τ sig) = shapeCast S100000x32 (V (main_arg0 : DevRef τ sig)) Facts₀.shapeCasts_S100000x32x1_S100000x32 := by
  after_results
  rfl

attribute [local irreducible] Host.reduce Host.gather in
set_option maxRecDepth 65536 in
/-- A gather stretch from any buffer contents: its result buffer ends at the gathered rows of the table's buffer. -/
theorem take32_read (V : Valuation τ sig (Elt Ideal)) :
    StableHlo.after hostOps0_1 V (main_v1 : DevRef τ sig) = take32 (V (main_v0 : DevRef τ sig)) (V (main_arg1 : DevRef τ sig)) := by
  after_results_simp
  simp only [Cert.LibTypedRefs.ofBuf_toBuf]
  rfl

theorem v2_read (V : Valuation τ sig (Elt Ideal)) :
    StableHlo.after hostOps0_2 V (main_v2 : DevRef τ sig) = shapeCast S100000x384 (V (main_v1 : DevRef τ sig)) Facts₀.shapeCasts_S100000x12x32_S100000x384 := by
  after_results
  rfl

theorem v3_read (V : Valuation τ sig (Elt Ideal)) :
    StableHlo.after hostOps0_2 V (main_v3 : DevRef τ sig) = shapeCast S1x64 (V (main_arg3 : DevRef τ sig)) Facts₀.shapeCasts_S64_S1x64 := by
  after_results
  rfl

attribute [local irreducible] Host.reduce Host.gather in
set_option maxRecDepth 65536 in
/-- A gather stretch from any buffer contents: its result buffer ends at the gathered rows of the table's buffer. -/
theorem take64_read1 (V : Valuation τ sig (Elt Ideal)) :
    StableHlo.after hostOps1 V (main_v5 : DevRef τ sig) = take64 (V (main_v4 : DevRef τ sig)) (V (main_arg1 : DevRef τ sig)) := by
  after_results_simp
  simp only [Cert.LibTypedRefs.ofBuf_toBuf]
  rfl

theorem v6_read (V : Valuation τ sig (Elt Ideal)) :
    StableHlo.after hostOps1_1 V (main_v6 : DevRef τ sig) = shapeCast S100000x768 (V (main_v5 : DevRef τ sig)) Facts₀.shapeCasts_S100000x12x64_S100000x768 := by
  after_results
  rfl

theorem v7_read (V : Valuation τ sig (Elt Ideal)) :
    StableHlo.after hostOps1_1 V (main_v7 : DevRef τ sig) = shapeCast S1x64 (V (main_arg5 : DevRef τ sig)) Facts₀.shapeCasts_S64_S1x64 := by
  after_results
  rfl

attribute [local irreducible] Host.reduce Host.gather in
set_option maxRecDepth 65536 in
/-- A gather stretch from any buffer contents: its result buffer ends at the gathered rows of the table's buffer. -/
theorem take64_read2 (V : Valuation τ sig (Elt Ideal)) :
    StableHlo.after hostOps2 V (main_v9 : DevRef τ sig) = take64 (V (main_v8 : DevRef τ sig)) (V (main_arg1 : DevRef τ sig)) := by
  after_results_simp
  simp only [Cert.LibTypedRefs.ofBuf_toBuf]
  rfl

theorem v10_read (V : Valuation τ sig (Elt Ideal)) :
    StableHlo.after hostOps2_1 V (main_v10 : DevRef τ sig) = shapeCast S100000x768 (V (main_v9 : DevRef τ sig)) Facts₀.shapeCasts_S100000x12x64_S100000x768 := by
  after_results
  rfl

theorem v11_read (V : Valuation τ sig (Elt Ideal)) :
    StableHlo.after hostOps2_1 V (main_v11 : DevRef τ sig) = shapeCast S1x32 (V (main_arg7 : DevRef τ sig)) Facts₀.shapeCasts_S32_S1x32 := by
  after_results
  rfl

theorem v13_read (V : Valuation τ sig (Elt Ideal)) :
    StableHlo.after hostOps3 V (main_v13 : DevRef τ sig) = broadcastInDim S100000x32x1 ![0, 1] Facts₀.bcast_S100000x32_S100000x32x1_0_1 (V (main_v12 : DevRef τ sig)) := by
  after_results

/-! ## Along @main -/

variable (m : (ℓ : Loc nD τ sig) → Buf (Elt Ideal) ℓ) (ρ : Dev nD → PrngReg)

/-- An argument's buffer when the first call is entered. -/
theorem W3_main_arg1 (c : Dev nD) : W3 (F := Ideal) m ρ c (main_arg1 : DevRef τ sig) = m ((c : Thread nD τ).loc main_arg1) := by
  show StableHlo.after hostOps0_2 (StableHlo.after hostOps0_1 (StableHlo.after hostOps0 (W0 m ρ c))) (main_arg1 : DevRef τ sig) = _
  rw [kept_hostOps0_2_main_arg1, kept_hostOps0_1_main_arg1, kept_hostOps0_main_arg1]
theorem W3_main_arg2 (c : Dev nD) : W3 (F := Ideal) m ρ c (main_arg2 : DevRef τ sig) = m ((c : Thread nD τ).loc main_arg2) := by
  show StableHlo.after hostOps0_2 (StableHlo.after hostOps0_1 (StableHlo.after hostOps0 (W0 m ρ c))) (main_arg2 : DevRef τ sig) = _
  rw [kept_hostOps0_2_main_arg2, kept_hostOps0_1_main_arg2, kept_hostOps0_main_arg2]
theorem W3_main_arg4 (c : Dev nD) : W3 (F := Ideal) m ρ c (main_arg4 : DevRef τ sig) = m ((c : Thread nD τ).loc main_arg4) := by
  show StableHlo.after hostOps0_2 (StableHlo.after hostOps0_1 (StableHlo.after hostOps0 (W0 m ρ c))) (main_arg4 : DevRef τ sig) = _
  rw [kept_hostOps0_2_main_arg4, kept_hostOps0_1_main_arg4, kept_hostOps0_main_arg4]
theorem W3_main_arg5 (c : Dev nD) : W3 (F := Ideal) m ρ c (main_arg5 : DevRef τ sig) = m ((c : Thread nD τ).loc main_arg5) := by
  show StableHlo.after hostOps0_2 (StableHlo.after hostOps0_1 (StableHlo.after hostOps0 (W0 m ρ c))) (main_arg5 : DevRef τ sig) = _
  rw [kept_hostOps0_2_main_arg5, kept_hostOps0_1_main_arg5, kept_hostOps0_main_arg5]
theorem W3_main_arg6 (c : Dev nD) : W3 (F := Ideal) m ρ c (main_arg6 : DevRef τ sig) = m ((c : Thread nD τ).loc main_arg6) := by
  show StableHlo.after hostOps0_2 (StableHlo.after hostOps0_1 (StableHlo.after hostOps0 (W0 m ρ c))) (main_arg6 : DevRef τ sig) = _
  rw [kept_hostOps0_2_main_arg6, kept_hostOps0_1_main_arg6, kept_hostOps0_main_arg6]
theorem W3_main_arg7 (c : Dev nD) : W3 (F := Ideal) m ρ c (main_arg7 : DevRef τ sig) = m ((c : Thread nD τ).loc main_arg7) := by
  show StableHlo.after hostOps0_2 (StableHlo.after hostOps0_1 (StableHlo.after hostOps0 (W0 m ρ c))) (main_arg7 : DevRef τ sig) = _
  rw [kept_hostOps0_2_main_arg7, kept_hostOps0_1_main_arg7, kept_hostOps0_main_arg7]

/-- The first call's activations window. -/
theorem W3_v2 (c : Dev nD) : W3 (F := Ideal) m ρ c (main_v2 : DevRef τ sig) = act0 (m ((c : Thread nD τ).loc main_arg0)) (m ((c : Thread nD τ).loc main_arg1)) := by
  show StableHlo.after hostOps0_2 (StableHlo.after hostOps0_1 (StableHlo.after hostOps0 (W0 m ρ c))) (main_v2 : DevRef τ sig) = _
  rw [v2_read, take32_read, v0_read, kept_hostOps0_main_arg1]
  rfl
/-- The first call's bias row. -/
theorem W3_v3 (c : Dev nD) : W3 (F := Ideal) m ρ c (main_v3 : DevRef τ sig) = shapeCast S1x64 (m ((c : Thread nD τ).loc main_arg3)) Facts₀.shapeCasts_S64_S1x64 := by
  show StableHlo.after hostOps0_2 (StableHlo.after hostOps0_1 (StableHlo.after hostOps0 (W0 m ρ c))) (main_v3 : DevRef τ sig) = _
  rw [v3_read, kept_hostOps0_1_main_arg3, kept_hostOps0_main_arg3]

/-- What the first call leaves. -/
theorem W4_v4 (c : Dev nD) : W4 (F := Ideal) m ρ c (main_v4 : DevRef τ sig) = hid1 (m ((c : Thread nD τ).loc main_arg0)) (m ((c : Thread nD τ).loc main_arg1)) (m ((c : Thread nD τ).loc main_arg2)) (m ((c : Thread nD τ).loc main_arg3)) := by
  refine (W4_arr m ρ c 3).trans ((final0 (V3 m ρ) c).trans ?_)
  show layer0 (W3 m ρ c (main_v2 : DevRef τ sig)) (W3 m ρ c (main_arg2 : DevRef τ sig)) (W3 m ρ c (main_v3 : DevRef τ sig)) = _
  rw [W3_v2, W3_main_arg2, W3_v3]
  rfl
theorem W4_main_arg1 (c : Dev nD) : W4 (F := Ideal) m ρ c (main_arg1 : DevRef τ sig) = m ((c : Thread nD τ).loc main_arg1) :=
  (W4_of_ne m ρ c main_arg1 (by decide)).trans (W3_main_arg1 m ρ c)
theorem W4_main_arg4 (c : Dev nD) : W4 (F := Ideal) m ρ c (main_arg4 : DevRef τ sig) = m ((c : Thread nD τ).loc main_arg4) :=
  (W4_of_ne m ρ c main_arg4 (by decide)).trans (W3_main_arg4 m ρ c)
theorem W4_main_arg5 (c : Dev nD) : W4 (F := Ideal) m ρ c (main_arg5 : DevRef τ sig) = m ((c : Thread nD τ).loc main_arg5) :=
  (W4_of_ne m ρ c main_arg5 (by decide)).trans (W3_main_arg5 m ρ c)
theorem W4_main_arg6 (c : Dev nD) : W4 (F := Ideal) m ρ c (main_arg6 : DevRef τ sig) = m ((c : Thread nD τ).loc main_arg6) :=
  (W4_of_ne m ρ c main_arg6 (by decide)).trans (W3_main_arg6 m ρ c)
theorem W4_main_arg7 (c : Dev nD) : W4 (F := Ideal) m ρ c (main_arg7 : DevRef τ sig) = m ((c : Thread nD τ).loc main_arg7) :=
  (W4_of_ne m ρ c main_arg7 (by decide)).trans (W3_main_arg7 m ρ c)

theorem W6_main_arg1 (c : Dev nD) : W6 (F := Ideal) m ρ c (main_arg1 : DevRef τ sig) = m ((c : Thread nD τ).loc main_arg1) := by
  show StableHlo.after hostOps1_1 (StableHlo.after hostOps1 (W4 m ρ c)) (main_arg1 : DevRef τ sig) = _
  rw [kept_hostOps1_1_main_arg1, kept_hostOps1_main_arg1, W4_main_arg1]
theorem W6_main_arg4 (c : Dev nD) : W6 (F := Ideal) m ρ c (main_arg4 : DevRef τ sig) = m ((c : Thread nD τ).loc main_arg4) := by
  show StableHlo.after hostOps1_1 (StableHlo.after hostOps1 (W4 m ρ c)) (main_arg4 : DevRef τ sig) = _
  rw [kept_hostOps1_1_main_arg4, kept_hostOps1_main_arg4, W4_main_arg4]
theorem W6_main_arg6 (c : Dev nD) : W6 (F := Ideal) m ρ c (main_arg6 : DevRef τ sig) = m ((c : Thread nD τ).loc main_arg6) := by
  show StableHlo.after hostOps1_1 (StableHlo.after hostOps1 (W4 m ρ c)) (main_arg6 : DevRef τ sig) = _
  rw [kept_hostOps1_1_main_arg6, kept_hostOps1_main_arg6, W4_main_arg6]
theorem W6_main_arg7 (c : Dev nD) : W6 (F := Ideal) m ρ c (main_arg7 : DevRef τ sig) = m ((c : Thread nD τ).loc main_arg7) := by
  show StableHlo.after hostOps1_1 (StableHlo.after hostOps1 (W4 m ρ c)) (main_arg7 : DevRef τ sig) = _
  rw [kept_hostOps1_1_main_arg7, kept_hostOps1_main_arg7, W4_main_arg7]

/-- The second call's activations window. -/
theorem W6_v6 (c : Dev nD) : W6 (F := Ideal) m ρ c (main_v6 : DevRef τ sig) = flat64 (hid1 (m ((c : Thread nD τ).loc main_arg0)) (m ((c : Thread nD τ).loc main_arg1)) (m ((c : Thread nD τ).loc main_arg2)) (m ((c : Thread nD τ).loc main_arg3))) (m ((c : Thread nD τ).loc main_arg1)) := by
  show StableHlo.after hostOps1_1 (StableHlo.after hostOps1 (W4 m ρ c)) (main_v6 : DevRef τ sig) = _
  rw [v6_read, take64_read1, W4_v4, W4_main_arg1]
  rfl
/-- The second call's bias row. -/
theorem W6_v7 (c : Dev nD) : W6 (F := Ideal) m ρ c (main_v7 : DevRef τ sig) = shapeCast S1x64 (m ((c : Thread nD τ).loc main_arg5)) Facts₀.shapeCasts_S64_S1x64 := by
  show StableHlo.after hostOps1_1 (StableHlo.after hostOps1 (W4 m ρ c)) (main_v7 : DevRef τ sig) = _
  rw [v7_read, kept_hostOps1_main_arg5, W4_main_arg5]

/-- What the second call leaves. -/
theorem W7_v8 (c : Dev nD) : W7 (F := Ideal) m ρ c (main_v8 : DevRef τ sig)
    = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 3).trans ((final1 (V6 m ρ) c).trans ?_)
  show layer1 (W6 m ρ c (main_v6 : DevRef τ sig)) (W6 m ρ c (main_arg4 : DevRef τ sig)) (W6 m ρ c (main_v7 : DevRef τ sig)) = _
  rw [W6_v6, W6_main_arg4, W6_v7]
  rfl
theorem W7_main_arg1 (c : Dev nD) : W7 (F := Ideal) m ρ c (main_arg1 : DevRef τ sig) = m ((c : Thread nD τ).loc main_arg1) :=
  (W7_of_ne m ρ c main_arg1 (by decide)).trans (W6_main_arg1 m ρ c)
theorem W7_main_arg6 (c : Dev nD) : W7 (F := Ideal) m ρ c (main_arg6 : DevRef τ sig) = m ((c : Thread nD τ).loc main_arg6) :=
  (W7_of_ne m ρ c main_arg6 (by decide)).trans (W6_main_arg6 m ρ c)
theorem W7_main_arg7 (c : Dev nD) : W7 (F := Ideal) m ρ c (main_arg7 : DevRef τ sig) = m ((c : Thread nD τ).loc main_arg7) :=
  (W7_of_ne m ρ c main_arg7 (by decide)).trans (W6_main_arg7 m ρ c)

/-- The third call's activations window. -/
theorem W9_v10 (c : Dev nD) : W9 (F := Ideal) m ρ c (main_v10 : DevRef τ sig)
    = flat64 (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) := by
  show StableHlo.after hostOps2_1 (StableHlo.after hostOps2 (W7 m ρ c)) (main_v10 : DevRef τ sig) = _
  rw [v10_read, take64_read2, W7_v8, W7_main_arg1]
  rfl
/-- The third call's bias row. -/
theorem W9_v11 (c : Dev nD) : W9 (F := Ideal) m ρ c (main_v11 : DevRef τ sig) = shapeCast S1x32 (m ((c : Thread nD τ).loc main_arg7)) Facts₀.shapeCasts_S32_S1x32 := by
  show StableHlo.after hostOps2_1 (StableHlo.after hostOps2 (W7 m ρ c)) (main_v11 : DevRef τ sig) = _
  rw [v11_read, kept_hostOps2_main_arg7, W7_main_arg7]
/-- The third call's weight. -/
theorem W9_main_arg6 (c : Dev nD) : W9 (F := Ideal) m ρ c (main_arg6 : DevRef τ sig) = m ((c : Thread nD τ).loc main_arg6) := by
  show StableHlo.after hostOps2_1 (StableHlo.after hostOps2 (W7 m ρ c)) (main_arg6 : DevRef τ sig) = _
  rw [kept_hostOps2_1_main_arg6, kept_hostOps2_main_arg6, W7_main_arg6]

/-- What the third call leaves. -/
theorem W10_v12 (c : Dev nD) : W10 (F := Ideal) m ρ c (main_v12 : DevRef τ sig)
    = hid3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((final2 (V9 m ρ) c).trans ?_)
  show layer2 (W9 m ρ c (main_v10 : DevRef τ sig)) (W9 m ρ c (main_arg6 : DevRef τ sig)) (W9 m ρ c (main_v11 : DevRef τ sig)) = _
  rw [W9_v10, W9_main_arg6, W9_v11]
  rfl

/-- THE RESULT BUFFER after @main: the network of the argument arrays. -/
theorem W11_v13 (c : Dev nD) : W11 (F := Ideal) m ρ c (main_v13 : DevRef τ sig)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W10 m ρ c) (main_v13 : DevRef τ sig) = _
  rw [v13_read, W10_v12]
  rfl

end Cert.KernelIdeal.Spiral

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefRun.lean ====
/-
  The reference program's run, read back as one composed term of its argument arrays.

  With its calls unfolded the reference is a straight line of 116 array operations, taken here in nine
  consecutive windows:

    w0   the input column array x[100000,32,1] re-indexed to h[100000,32];
    w1   the neighbour gather of h at idx[100000,12] (23 operations): a negative index is wrapped by adding 100000,
         rows are gathered at the wrapped index, and a row whose wrapped index falls outside [0, 99999] is
         replaced by the quiet NaN constant;
    w2   the gathered rows flattened to [100000,384], contracted with W0[384,64], the bias b0[64] added along rows;
    w3   elu, elementwise (15 operations): y where y > 0, else 1 * expm1(y) — expm1 taken of y where y <= 0 and of
         0 elsewhere;
    w4   the gather again, of 64 columns; w5 the second layer (W1[768,64], b1[64]); w6 elu; w7 the gather;
    w8   the third layer (W2[768,32], b2[32]) and the result re-indexed to [100000,32,1].

  Each window's fold over the buffer contents is read off as one stage applied to the contents it starts from
  (the window's result buffer) and as the identity on every argument buffer; the windows compose to `out`.
-/
import proofs.«172248_j11819749998924_1_alg».proof.ReferenceIdeal
import Idealize.ShloMosaic.Lib.StableHlo.Run
import proofs.«172248_j11819749998924_1_alg».proof.Proof.LibRunWindows

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The stages, as functions of arrays -/

/-- The neighbour gather at 32 columns: `idx` wrapped (a negative entry plus 100000) and given a unit axis; the rows
    of `h` at the wrapped index; a row kept where the wrapped index lies in [0, 99999] (the conjunction of the two
    comparisons, reduced over the unit axis from `true`), the quiet NaN elsewhere. -/
def take32 (h : FVec F S100000x32 .f32) (idx : IVec S100000x12 32) : FVec F S100000x12x32 .f32 :=
  select
    (broadcastInDim S100000x12x32 ![0, 1] bcast_S100000x12_S100000x12x32_0_1
      (Host.reduce IntOp.andi
        (andi
          (cmpi .sge (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx))
            (broadcastInDim S100000x12x1 ![] bcast_S_S100000x12x1 (constantI S_ 32 0#32)))
          (cmpi .sle (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx))
            (broadcastInDim S100000x12x1 ![0, 1, 2] bcast_S1x1x1_S100000x12x1_0_1_2
              (broadcastInDim S1x1x1 ![2] bcast_S1_S1x1x1_2 (constantI S1 32 99999#32)))))
        (constantI S_ 1 1#1) reducesTo_S100000x12x1_S100000x12_d2 h_S_))
    (Host.gather gather_S100000x32_S100000x12x1_S100000x12x32_2_0_n_n_0_2_132 h (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx)))
    (broadcastInDim S100000x12x32 ![] bcast_S_S100000x12x32 (constant S_ .f32 0x7FC00000#32))

/-- The same gather at 64 columns. -/
def take64 (h : FVec F S100000x64 .f32) (idx : IVec S100000x12 32) : FVec F S100000x12x64 .f32 :=
  select
    (broadcastInDim S100000x12x64 ![0, 1] bcast_S100000x12_S100000x12x64_0_1
      (Host.reduce IntOp.andi
        (andi
          (cmpi .sge (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx))
            (broadcastInDim S100000x12x1 ![] bcast_S_S100000x12x1 (constantI S_ 32 0#32)))
          (cmpi .sle (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx))
            (broadcastInDim S100000x12x1 ![0, 1, 2] bcast_S1x1x1_S100000x12x1_0_1_2
              (broadcastInDim S1x1x1 ![2] bcast_S1_S1x1x1_2 (constantI S1 32 99999#32)))))
        (constantI S_ 1 1#1) reducesTo_S100000x12x1_S100000x12_d2 h_S_))
    (Host.gather gather_S100000x64_S100000x12x1_S100000x12x64_2_0_n_n_0_2_164 h (broadcastInDim S100000x12x1 ![0, 1] bcast_S100000x12_S100000x12x1_0_1 (select (cmpi .slt idx (broadcastInDim S100000x12 ![] bcast_S_S100000x12 (constantI S_ 32 0#32))) (addi idx (broadcastInDim S100000x12 ![] bcast_S_S100000x12 (constantI S_ 32 100000#32))) idx)))
    (broadcastInDim S100000x12x64 ![] bcast_S_S100000x12x64 (constant S_ .f32 0x7FC00000#32))

/-- elu, elementwise: `y` where `y > 0`, else `1 * expm1 (y where y <= 0, 0 elsewhere)`. -/
def elu64 (y : FVec F S100000x64 .f32) : FVec F S100000x64 .f32 :=
  select (cmpf .ogt y (broadcastInDim S100000x64 ![] bcast_S_S100000x64 (constant S_ .f32 0x00000000#32))) y
    (mulf (broadcastInDim S100000x64 ![] bcast_S_S100000x64 (constant S_ .f32 0x3F800000#32))
      (Host.expm1
        (select (cmpf .ogt y (broadcastInDim S100000x64 ![] bcast_S_S100000x64 (constant S_ .f32 0x00000000#32)))
          (broadcastInDim S100000x64 ![] bcast_S_S100000x64 (id (constant S_ .f32 0x00000000#32))) y)))

/-- The whole reference: three layers, each the gather of the previous activations' rows at `idx`, flattened,
    contracted with the layer's matrix, the bias added along rows — elu between layers — and the last layer's
    [100000,32] result given a trailing unit axis. -/
def out (x : FVec F S100000x32x1 .f32) (idx : IVec S100000x12 32) (W0 : FVec F S384x64 .f32) (b0 : FVec F S64 .f32)
    (W1 : FVec F S768x64 .f32) (b1 : FVec F S64 .f32) (W2 : FVec F S768x32 .f32) (b2 : FVec F S32 .f32) :
    FVec F S100000x32x1 .f32 :=
  broadcastInDim S100000x32x1 ![0, 1] bcast_S100000x32_S100000x32x1_0_1 (addf (Host.dotGeneral dot_S100000x768_S768x32_S100000x32_1_0_0_1_n_n none (shapeCast S100000x768 (take64 (elu64 (addf (Host.dotGeneral dot_S100000x768_S768x64_S100000x64_1_0_0_1_n_n none (shapeCast S100000x768 (take64 (elu64 (addf (Host.dotGeneral dot_S100000x384_S384x64_S100000x64_1_0_0_1_n_n none (shapeCast S100000x384 (take32 (shapeCast S100000x32 x shapeCasts_S100000x32x1_S100000x32) idx) shapeCasts_S100000x12x32_S100000x384) W0) (broadcastInDim S100000x64 ![0, 1] bcast_S1x64_S100000x64_0_1 (broadcastInDim S1x64 ![1] bcast_S64_S1x64_1 b0)))) idx) shapeCasts_S100000x12x64_S100000x768) W1) (broadcastInDim S100000x64 ![0, 1] bcast_S1x64_S100000x64_0_1 (broadcastInDim S1x64 ![1] bcast_S64_S1x64_1 b1)))) idx) shapeCasts_S100000x12x64_S100000x768) W2) (broadcastInDim S100000x32 ![0, 1] bcast_S1x32_S100000x32_0_1 (broadcastInDim S1x32 ![1] bcast_S32_S1x32_1 b2)))

/-! ## The straight line, window by window -/

/-- The input re-indexed to [100000,32]. -/
abbrev w0 : List (HloOp τ sig (Elt F)) :=
  [ StableHlo.reshape main_arg0 main_v0 rfl shapeCasts_S100000x32x1_S100000x32 ]

/-- The gather at 32 columns (23 operations). -/
abbrev w1 : List (HloOp τ sig (Elt F)) :=
  [ StableHlo.TRef.nullary main_call0.c (constantI S_ 32 0#32),
    StableHlo.TRef.unary main_call0.c main_call0.v0 (broadcastInDim S100000x12 ![] bcast_S_S100000x12),
    StableHlo.TRef.binary (.of main_arg1 : StableHlo.TRef sig ⟨S100000x12, .i32⟩) main_call0.v0 main_call0.v1 (cmpi .slt),
    StableHlo.TRef.nullary main_call0.c_0 (constantI S_ 32 100000#32),
    StableHlo.TRef.unary main_call0.c_0 main_call0.v2 (broadcastInDim S100000x12 ![] bcast_S_S100000x12),
    StableHlo.TRef.binary (.of main_arg1 : StableHlo.TRef sig ⟨S100000x12, .i32⟩) main_call0.v2 main_call0.v3 addi,
    StableHlo.TRef.ternary main_call0.v1 main_call0.v3 (.of main_arg1 : StableHlo.TRef sig ⟨S100000x12, .i32⟩) main_call0.call0.v0 select,
    StableHlo.TRef.unary main_call0.call0.v0 main_call0.v5 (broadcastInDim S100000x12x1 ![0, 1] bcast_S100000x12_S100000x12x1_0_1),
    StableHlo.TRef.nullary main_call0.c_1 (constantI S1 32 99999#32),
    StableHlo.TRef.nullary main_call0.c_2 (constantI S_ 32 0#32),
    StableHlo.TRef.unary main_call0.c_2 main_call0.v6 (broadcastInDim S100000x12x1 ![] bcast_S_S100000x12x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S100000x12x1 ![0, 1, 2] bcast_S1x1x1_S100000x12x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S100000x12x1_S100000x12_d2 h_S_),
    StableHlo.TRef.binary (.of main_v0 : StableHlo.TRef sig ⟨S100000x32, .f32⟩) main_call0.v5 main_call0.v13 (fun x i => Host.gather gather_S100000x32_S100000x12x1_S100000x12x32_2_0_n_n_0_2_132 x i),
    StableHlo.TRef.unary main_call0.v12 main_call0.v14 (broadcastInDim S100000x12x32 ![0, 1] bcast_S100000x12_S100000x12x32_0_1),
    StableHlo.TRef.nullary main_call0.cst (constant S_ .f32 0x7FC00000#32),
    StableHlo.TRef.unary main_call0.cst main_call0.v15 (broadcastInDim S100000x12x32 ![] bcast_S_S100000x12x32),
    StableHlo.TRef.ternary main_call0.v14 main_call0.v13 main_call0.v15 main_call0.v16 select ]

/-- The first layer: flatten, contract with the [384,64] matrix, add the bias along rows. -/
abbrev w2 : List (HloOp τ sig (Elt F)) :=
  [ StableHlo.reshape main_v1 main_v2 rfl shapeCasts_S100000x12x32_S100000x384,
    StableHlo.binary main_v2 main_arg2 main_v3 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    StableHlo.unary main_arg3 main_v4 (broadcastInDim S1x64 ![1] bcast_S64_S1x64_1 : (⟨S64, .f32⟩ : BufTy).Contents (Elt F) → (⟨S1x64, .f32⟩ : BufTy).Contents (Elt F)),
    StableHlo.unary main_v4 main_v5 (broadcastInDim S100000x64 ![0, 1] bcast_S1x64_S100000x64_0_1 : (⟨S1x64, .f32⟩ : BufTy).Contents (Elt F) → (⟨S100000x64, .f32⟩ : BufTy).Contents (Elt F)),
    StableHlo.binary main_v3 main_v5 main_v6 (addf : (⟨S100000x64, .f32⟩ : BufTy).Contents (Elt F) → (⟨S100000x64, .f32⟩ : BufTy).Contents (Elt F) → (⟨S100000x64, .f32⟩ : BufTy).Contents (Elt F)) ]

/-- elu (15 operations). -/
abbrev w3 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v6 : StableHlo.TRef sig ⟨S100000x64, .f32⟩) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v6 : StableHlo.TRef sig ⟨S100000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v6 : StableHlo.TRef sig ⟨S100000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v6 : StableHlo.TRef sig ⟨S100000x64, .f32⟩) main_call1.v7 main_call1.call1.v0 select ]

/-- The gather at 64 columns (23 operations). -/
abbrev w4 : List (HloOp τ sig (Elt F)) :=
  [ StableHlo.TRef.nullary main_call2.c (constantI S_ 32 0#32),
    StableHlo.TRef.unary main_call2.c main_call2.v0 (broadcastInDim S100000x12 ![] bcast_S_S100000x12),
    StableHlo.TRef.binary (.of main_arg1 : StableHlo.TRef sig ⟨S100000x12, .i32⟩) main_call2.v0 main_call2.v1 (cmpi .slt),
    StableHlo.TRef.nullary main_call2.c_0 (constantI S_ 32 100000#32),
    StableHlo.TRef.unary main_call2.c_0 main_call2.v2 (broadcastInDim S100000x12 ![] bcast_S_S100000x12),
    StableHlo.TRef.binary (.of main_arg1 : StableHlo.TRef sig ⟨S100000x12, .i32⟩) main_call2.v2 main_call2.v3 addi,
    StableHlo.TRef.ternary main_call2.v1 main_call2.v3 (.of main_arg1 : StableHlo.TRef sig ⟨S100000x12, .i32⟩) main_call2.call0.v0 select,
    StableHlo.TRef.unary main_call2.call0.v0 main_call2.v5 (broadcastInDim S100000x12x1 ![0, 1] bcast_S100000x12_S100000x12x1_0_1),
    StableHlo.TRef.nullary main_call2.c_1 (constantI S1 32 99999#32),
    StableHlo.TRef.nullary main_call2.c_2 (constantI S_ 32 0#32),
    StableHlo.TRef.unary main_call2.c_2 main_call2.v6 (broadcastInDim S100000x12x1 ![] bcast_S_S100000x12x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S100000x12x1 ![0, 1, 2] bcast_S1x1x1_S100000x12x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S100000x12x1_S100000x12_d2 h_S_),
    StableHlo.TRef.binary (.of main_v7 : StableHlo.TRef sig ⟨S100000x64, .f32⟩) main_call2.v5 main_call2.v13 (fun x i => Host.gather gather_S100000x64_S100000x12x1_S100000x12x64_2_0_n_n_0_2_164 x i),
    StableHlo.TRef.unary main_call2.v12 main_call2.v14 (broadcastInDim S100000x12x64 ![0, 1] bcast_S100000x12_S100000x12x64_0_1),
    StableHlo.TRef.nullary main_call2.cst (constant S_ .f32 0x7FC00000#32),
    StableHlo.TRef.unary main_call2.cst main_call2.v15 (broadcastInDim S100000x12x64 ![] bcast_S_S100000x12x64),
    StableHlo.TRef.ternary main_call2.v14 main_call2.v13 main_call2.v15 main_call2.v16 select ]

/-- The second layer: flatten, contract with the [768,64] matrix, add the bias along rows. -/
abbrev w5 : List (HloOp τ sig (Elt F)) :=
  [ StableHlo.reshape main_v8 main_v9 rfl shapeCasts_S100000x12x64_S100000x768,
    StableHlo.binary main_v9 main_arg4 main_v10 ((fun l r => Host.dotGeneral dot_S100000x768_S768x64_S100000x64_1_0_0_1_n_n none l r) : (⟨S100000x768, .f32⟩ : BufTy).Contents (Elt F) → (⟨S768x64, .f32⟩ : BufTy).Contents (Elt F) → (⟨S100000x64, .f32⟩ : BufTy).Contents (Elt F)),
    StableHlo.unary main_arg5 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v12 main_v13 (addf : (⟨S100000x64, .f32⟩ : BufTy).Contents (Elt F) → (⟨S100000x64, .f32⟩ : BufTy).Contents (Elt F) → (⟨S100000x64, .f32⟩ : BufTy).Contents (Elt F)) ]

/-- elu again. -/
abbrev w6 : List (HloOp τ sig (Elt F)) :=
  [ StableHlo.TRef.nullary main_call3.cst (constant S_ .f32 0x00000000#32),
    StableHlo.TRef.unary main_call3.cst main_call3.v0 (broadcastInDim S100000x64 ![] bcast_S_S100000x64),
    StableHlo.TRef.binary (.of main_v13 : StableHlo.TRef sig ⟨S100000x64, .f32⟩) main_call3.v0 main_call3.v1 (cmpf .ogt),
    StableHlo.TRef.nullary main_call3.cst_0 (constant S_ .f32 0x00000000#32),
    StableHlo.TRef.unary main_call3.cst_0 main_call3.v2 (broadcastInDim S100000x64 ![] bcast_S_S100000x64),
    StableHlo.TRef.binary (.of main_v13 : StableHlo.TRef sig ⟨S100000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x64 ![] bcast_S_S100000x64),
    StableHlo.TRef.ternary main_call3.v3 main_call3.call0.v1 (.of main_v13 : StableHlo.TRef sig ⟨S100000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x64 ![] bcast_S_S100000x64),
    StableHlo.TRef.binary main_call3.v6 main_call3.v5 main_call3.v7 mulf,
    StableHlo.TRef.ternary main_call3.v1 (.of main_v13 : StableHlo.TRef sig ⟨S100000x64, .f32⟩) main_call3.v7 main_call3.call1.v0 select ]

/-- The gather at 64 columns again. -/
abbrev w7 : List (HloOp τ sig (Elt F)) :=
  [ StableHlo.TRef.nullary main_call4.c (constantI S_ 32 0#32),
    StableHlo.TRef.unary main_call4.c main_call4.v0 (broadcastInDim S100000x12 ![] bcast_S_S100000x12),
    StableHlo.TRef.binary (.of main_arg1 : StableHlo.TRef sig ⟨S100000x12, .i32⟩) main_call4.v0 main_call4.v1 (cmpi .slt),
    StableHlo.TRef.nullary main_call4.c_0 (constantI S_ 32 100000#32),
    StableHlo.TRef.unary main_call4.c_0 main_call4.v2 (broadcastInDim S100000x12 ![] bcast_S_S100000x12),
    StableHlo.TRef.binary (.of main_arg1 : StableHlo.TRef sig ⟨S100000x12, .i32⟩) main_call4.v2 main_call4.v3 addi,
    StableHlo.TRef.ternary main_call4.v1 main_call4.v3 (.of main_arg1 : StableHlo.TRef sig ⟨S100000x12, .i32⟩) main_call4.call0.v0 select,
    StableHlo.TRef.unary main_call4.call0.v0 main_call4.v5 (broadcastInDim S100000x12x1 ![0, 1] bcast_S100000x12_S100000x12x1_0_1),
    StableHlo.TRef.nullary main_call4.c_1 (constantI S1 32 99999#32),
    StableHlo.TRef.nullary main_call4.c_2 (constantI S_ 32 0#32),
    StableHlo.TRef.unary main_call4.c_2 main_call4.v6 (broadcastInDim S100000x12x1 ![] bcast_S_S100000x12x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S100000x12x1 ![0, 1, 2] bcast_S1x1x1_S100000x12x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S100000x12x1_S100000x12_d2 h_S_),
    StableHlo.TRef.binary (.of main_v14 : StableHlo.TRef sig ⟨S100000x64, .f32⟩) main_call4.v5 main_call4.v13 (fun x i => Host.gather gather_S100000x64_S100000x12x1_S100000x12x64_2_0_n_n_0_2_164 x i),
    StableHlo.TRef.unary main_call4.v12 main_call4.v14 (broadcastInDim S100000x12x64 ![0, 1] bcast_S100000x12_S100000x12x64_0_1),
    StableHlo.TRef.nullary main_call4.cst (constant S_ .f32 0x7FC00000#32),
    StableHlo.TRef.unary main_call4.cst main_call4.v15 (broadcastInDim S100000x12x64 ![] bcast_S_S100000x12x64),
    StableHlo.TRef.ternary main_call4.v14 main_call4.v13 main_call4.v15 main_call4.v16 select ]

/-- The third layer: flatten, contract with the [768,32] matrix, add the bias along rows, and the trailing unit axis. -/
abbrev w8 : List (HloOp τ sig (Elt F)) :=
  [ StableHlo.reshape main_v15 main_v16 rfl shapeCasts_S100000x12x64_S100000x768,
    StableHlo.binary main_v16 main_arg6 main_v17 ((fun l r => Host.dotGeneral dot_S100000x768_S768x32_S100000x32_1_0_0_1_n_n none l r) : (⟨S100000x768, .f32⟩ : BufTy).Contents (Elt F) → (⟨S768x32, .f32⟩ : BufTy).Contents (Elt F) → (⟨S100000x32, .f32⟩ : BufTy).Contents (Elt F)),
    StableHlo.unary main_arg7 main_v18 (broadcastInDim S1x32 ![1] bcast_S32_S1x32_1 : (⟨S32, .f32⟩ : BufTy).Contents (Elt F) → (⟨S1x32, .f32⟩ : BufTy).Contents (Elt F)),
    StableHlo.unary main_v18 main_v19 (broadcastInDim S100000x32 ![0, 1] bcast_S1x32_S100000x32_0_1 : (⟨S1x32, .f32⟩ : BufTy).Contents (Elt F) → (⟨S100000x32, .f32⟩ : BufTy).Contents (Elt F)),
    StableHlo.binary main_v17 main_v19 main_v20 (addf : (⟨S100000x32, .f32⟩ : BufTy).Contents (Elt F) → (⟨S100000x32, .f32⟩ : BufTy).Contents (Elt F) → (⟨S100000x32, .f32⟩ : BufTy).Contents (Elt F)),
    StableHlo.unary main_v20 main_v21 (broadcastInDim S100000x32x1 ![0, 1] bcast_S100000x32_S100000x32x1_0_1 : (⟨S100000x32, .f32⟩ : BufTy).Contents (Elt F) → (⟨S100000x32x1, .f32⟩ : BufTy).Contents (Elt F)) ]

/-- The line up to and including each window. -/
abbrev p1 : List (HloOp τ sig (Elt F)) := w0 ++ w1
abbrev p2 : List (HloOp τ sig (Elt F)) := p1 ++ w2
abbrev p3 : List (HloOp τ sig (Elt F)) := p2 ++ w3
abbrev p4 : List (HloOp τ sig (Elt F)) := p3 ++ w4
abbrev p5 : List (HloOp τ sig (Elt F)) := p4 ++ w5
abbrev p6 : List (HloOp τ sig (Elt F)) := p5 ++ w6
abbrev p7 : List (HloOp τ sig (Elt F)) := p6 ++ w7
/-- The whole line: 116 operations. -/
abbrev ops : List (HloOp τ sig (Elt F)) := p7 ++ w8

set_option maxRecDepth 8192 in
set_option maxHeartbeats 1600000 in
/-- The program is that line: each call is its callee's body on the call's buffers, and sequencing re-associates. -/
theorem main_eq (c : Dev nD) : main (F := F) c = seq ops := by
  simp only [main, fn_take.body, fn_take_2.body, fn_elu.body, fn_where.body, fn_where_0.body, fn_where_1.body,
    ops, p1, p2, p3, p4, p5, p6, p7, w0, w1, w2, w3, w4, w5, w6, w7, w8, List.cons_append, List.nil_append,
    seq, bind_assoc, pure_bind]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  reshape_bufs_sub ..
theorem w0_fresh : ∀ op ∈ (w0 : List (HloOp τ sig (Elt F))), op.fresh = ∅ :=
  List.forall_iff_forall_mem.mp (by simp only [List.Forall]; repeat' constructor)

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem w1_fresh : ∀ op ∈ (w1 : List (HloOp τ sig (Elt F))), op.fresh = ∅ :=
  List.forall_iff_forall_mem.mp (by simp only [List.Forall]; repeat' constructor)

theorem w2_sub : (w2 : List (HloOp τ sig (Elt F))).Forall fun op => op.bufs ⊆ tcRefs τ sig :=
  ⟨reshape_bufs_sub .., binary_bufs_sub .., unary_bufs_sub .., unary_bufs_sub .., binary_bufs_sub ..⟩
theorem w2_fresh : ∀ op ∈ (w2 : List (HloOp τ sig (Elt F))), op.fresh = ∅ :=
  List.forall_iff_forall_mem.mp (by simp only [List.Forall]; repeat' constructor)

theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w3_fresh : ∀ op ∈ (w3 : List (HloOp τ sig (Elt F))), op.fresh = ∅ :=
  List.forall_iff_forall_mem.mp (by simp only [List.Forall]; repeat' constructor)

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem w4_fresh : ∀ op ∈ (w4 : List (HloOp τ sig (Elt F))), op.fresh = ∅ :=
  List.forall_iff_forall_mem.mp (by simp only [List.Forall]; repeat' constructor)

theorem w5_sub : (w5 : List (HloOp τ sig (Elt F))).Forall fun op => op.bufs ⊆ tcRefs τ sig :=
  ⟨reshape_bufs_sub .., binary_bufs_sub .., unary_bufs_sub .., unary_bufs_sub .., binary_bufs_sub ..⟩
theorem w5_fresh : ∀ op ∈ (w5 : List (HloOp τ sig (Elt F))), op.fresh = ∅ :=
  List.forall_iff_forall_mem.mp (by simp only [List.Forall]; repeat' constructor)

theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w6_fresh : ∀ op ∈ (w6 : List (HloOp τ sig (Elt F))), op.fresh = ∅ :=
  List.forall_iff_forall_mem.mp (by simp only [List.Forall]; repeat' constructor)

theorem w7_sub : (w7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem w7_fresh : ∀ op ∈ (w7 : List (HloOp τ sig (Elt F))), op.fresh = ∅ :=
  List.forall_iff_forall_mem.mp (by simp only [List.Forall]; repeat' constructor)

theorem w8_sub : (w8 : List (HloOp τ sig (Elt F))).Forall fun op => op.bufs ⊆ tcRefs τ sig :=
  ⟨reshape_bufs_sub .., binary_bufs_sub .., unary_bufs_sub .., unary_bufs_sub .., binary_bufs_sub .., unary_bufs_sub ..⟩
theorem w8_fresh : ∀ op ∈ (w8 : List (HloOp τ sig (Elt F))), op.fresh = ∅ :=
  List.forall_iff_forall_mem.mp (by simp only [List.Forall]; repeat' constructor)

theorem ops_sub : (ops : List (HloOp τ sig (Elt F))).Forall fun op => op.bufs ⊆ tcRefs τ sig :=
  forall_append (forall_append (forall_append (forall_append (forall_append (forall_append (forall_append (forall_append
    w0_sub w1_sub) w2_sub) w3_sub) w4_sub) w5_sub) w6_sub) w7_sub) w8_sub
theorem ops_fresh : ∀ op ∈ (ops : List (HloOp τ sig (Elt F))), op.fresh = ∅ :=
  forall_mem_append (forall_mem_append (forall_mem_append (forall_mem_append (forall_mem_append (forall_mem_append (forall_mem_append (forall_mem_append
    w0_fresh w1_fresh) w2_fresh) w3_fresh) w4_fresh) w5_fresh) w6_fresh) w7_fresh) w8_fresh

/-! ## What each window leaves

For buffer contents `V` at a window's start: its result buffer ends at the window's stage of the contents it reads,
and an argument buffer ends as it started (no operation writes one). -/

/-- The eight argument buffers. -/
abbrev argRefs : List (Ref sig .tc) :=
  [main_arg0, main_arg1, main_arg2, main_arg3, main_arg4, main_arg5, main_arg6, main_arg7]

/-- Contents carried to a buffer's own type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

set_option maxRecDepth 8192 in
theorem w0_res (V : Valuation τ sig (Elt F)) :
    after w0 V (main_v0 : DevRef τ sig) = shapeCast S100000x32 (V (main_arg0 : DevRef τ sig)) shapeCasts_S100000x32x1_S100000x32 := by
  after_results_simp
  rfl

theorem w0_kept (V : Valuation τ sig (Elt F)) (r : Ref sig .tc) (hr : r ∈ argRefs) :
    after w0 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

attribute [local irreducible] Host.reduce Host.gather in
set_option maxRecDepth 65536 in
set_option maxHeartbeats 800000 in
theorem w1_res (V : Valuation τ sig (Elt F)) :
    after w1 V (main_v1 : DevRef τ sig) = take32 (V (main_v0 : DevRef τ sig)) (V (main_arg1 : DevRef τ sig)) := by
  after_results_simp
  simp only [ofBuf_toBuf]
  rfl

theorem w1_kept (V : Valuation τ sig (Elt F)) (r : Ref sig .tc) (hr : r ∈ argRefs) :
    after w1 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

set_option maxRecDepth 8192 in
theorem w2_res (V : Valuation τ sig (Elt F)) :
    after w2 V (main_v6 : DevRef τ sig) = addf (Host.dotGeneral dot_S100000x384_S384x64_S100000x64_1_0_0_1_n_n none (shapeCast S100000x384 (V (main_v1 : DevRef τ sig)) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))) := by
  after_results_simp
  rfl

theorem w2_kept (V : Valuation τ sig (Elt F)) (r : Ref sig .tc) (hr : r ∈ argRefs) :
    after w2 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

attribute [local irreducible] Host.reduce Host.gather in
set_option maxRecDepth 65536 in
set_option maxHeartbeats 800000 in
theorem w3_res (V : Valuation τ sig (Elt F)) :
    after w3 V (main_v7 : DevRef τ sig) = elu64 (V (main_v6 : DevRef τ sig)) := by
  after_results_simp
  simp only [ofBuf_toBuf]
  rfl

theorem w3_kept (V : Valuation τ sig (Elt F)) (r : Ref sig .tc) (hr : r ∈ argRefs) :
    after w3 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

attribute [local irreducible] Host.reduce Host.gather in
set_option maxRecDepth 65536 in
set_option maxHeartbeats 800000 in
theorem w4_res (V : Valuation τ sig (Elt F)) :
    after w4 V (main_v8 : DevRef τ sig) = take64 (V (main_v7 : DevRef τ sig)) (V (main_arg1 : DevRef τ sig)) := by
  after_results_simp
  simp only [ofBuf_toBuf]
  rfl

theorem w4_kept (V : Valuation τ sig (Elt F)) (r : Ref sig .tc) (hr : r ∈ argRefs) :
    after w4 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

set_option maxRecDepth 8192 in
theorem w5_res (V : Valuation τ sig (Elt F)) :
    after w5 V (main_v13 : DevRef τ sig) = addf (Host.dotGeneral dot_S100000x768_S768x64_S100000x64_1_0_0_1_n_n none (shapeCast S100000x768 (V (main_v8 : DevRef τ sig)) shapeCasts_S100000x12x64_S100000x768) (V (main_arg4 : DevRef τ sig))) (broadcastInDim S100000x64 ![0, 1] bcast_S1x64_S100000x64_0_1 (broadcastInDim S1x64 ![1] bcast_S64_S1x64_1 (V (main_arg5 : DevRef τ sig)))) := by
  after_results_simp
  rfl

theorem w5_kept (V : Valuation τ sig (Elt F)) (r : Ref sig .tc) (hr : r ∈ argRefs) :
    after w5 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

attribute [local irreducible] Host.reduce Host.gather in
set_option maxRecDepth 65536 in
set_option maxHeartbeats 800000 in
theorem w6_res (V : Valuation τ sig (Elt F)) :
    after w6 V (main_v14 : DevRef τ sig) = elu64 (V (main_v13 : DevRef τ sig)) := by
  after_results_simp
  simp only [ofBuf_toBuf]
  rfl

theorem w6_kept (V : Valuation τ sig (Elt F)) (r : Ref sig .tc) (hr : r ∈ argRefs) :
    after w6 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

attribute [local irreducible] Host.reduce Host.gather in
set_option maxRecDepth 65536 in
set_option maxHeartbeats 800000 in
theorem w7_res (V : Valuation τ sig (Elt F)) :
    after w7 V (main_v15 : DevRef τ sig) = take64 (V (main_v14 : DevRef τ sig)) (V (main_arg1 : DevRef τ sig)) := by
  after_results_simp
  simp only [ofBuf_toBuf]
  rfl

theorem w7_kept (V : Valuation τ sig (Elt F)) (r : Ref sig .tc) (hr : r ∈ argRefs) :
    after w7 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

set_option maxRecDepth 8192 in
theorem w8_res (V : Valuation τ sig (Elt F)) :
    after w8 V (main_v21 : DevRef τ sig) = broadcastInDim S100000x32x1 ![0, 1] bcast_S100000x32_S100000x32x1_0_1 (addf (Host.dotGeneral dot_S100000x768_S768x32_S100000x32_1_0_0_1_n_n none (shapeCast S100000x768 (V (main_v15 : DevRef τ sig)) shapeCasts_S100000x12x64_S100000x768) (V (main_arg6 : DevRef τ sig))) (broadcastInDim S100000x32 ![0, 1] bcast_S1x32_S100000x32_0_1 (broadcastInDim S1x32 ![1] bcast_S32_S1x32_1 (V (main_arg7 : DevRef τ sig))))) := by
  after_results_simp
  rfl

theorem w8_kept (V : Valuation τ sig (Elt F)) (r : Ref sig .tc) (hr : r ∈ argRefs) :
    after w8 V (Proc.devRef .tc r) = V (Proc.devRef .tc r) := by
  refine after_of_forall_not_mem (b := Proc.devRef .tc r) _ _ (List.forall_iff_forall_mem.mp ?_)
  simp only [List.Forall, nullary_writes, unary_writes, binary_writes, ternary_writes, reshape_writes, Finset.mem_singleton]
  repeat' apply And.intro
  all_goals exact devRef_ne_of_ne (ne_of_mem_of_not_mem hr (by decide))

/-! ## The windows composed

The fold over a concatenation is the second window's fold of the first's; so the line up to each window leaves that
window's result at the stages composed so far, of the contents the line started from. -/

theorem p1_kept (V : Valuation τ sig (Elt F)) (r : Ref sig .tc) (hr : r ∈ argRefs) :
    after (w0 ++ w1) V (Proc.devRef .tc r) = V (Proc.devRef .tc r) := by
  rw [after_append, w1_kept _ r hr, w0_kept V r hr]

theorem p1_res (V : Valuation τ sig (Elt F)) :
    after (w0 ++ w1) V (main_v1 : DevRef τ sig) = take32 (shapeCast S100000x32 (V (main_arg0 : DevRef τ sig)) shapeCasts_S100000x32x1_S100000x32) (V (main_arg1 : DevRef τ sig)) := by
  rw [after_append, w1_res, w0_res, w0_kept V main_arg1 (by decide)]

theorem p2_kept (V : Valuation τ sig (Elt F)) (r : Ref sig .tc) (hr : r ∈ argRefs) :
    after (p1 ++ w2) V (Proc.devRef .tc r) = V (Proc.devRef .tc r) := by
  rw [after_append, w2_kept _ r hr, p1_kept V r hr]

theorem p2_res (V : Valuation τ sig (Elt F)) :
    after (p1 ++ w2) V (main_v6 : DevRef τ sig) = addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))) := by
  rw [after_append, w2_res, p1_res, p1_kept V main_arg2 (by decide), p1_kept V main_arg3 (by decide)]

theorem p3_kept (V : Valuation τ sig (Elt F)) (r : Ref sig .tc) (hr : r ∈ argRefs) :
    after (p2 ++ w3) V (Proc.devRef .tc r) = V (Proc.devRef .tc r) := by
  rw [after_append, w3_kept _ r hr, p2_kept V r hr]

theorem p3_res (V : Valuation τ sig (Elt F)) :
    after (p2 ++ w3) V (main_v7 : DevRef τ sig) = elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig))))) := by
  rw [after_append, w3_res, p2_res]

theorem p4_kept (V : Valuation τ sig (Elt F)) (r : Ref sig .tc) (hr : r ∈ argRefs) :
    after (p3 ++ w4) V (Proc.devRef .tc r) = V (Proc.devRef .tc r) := by
  rw [after_append, w4_kept _ r hr, p3_kept V r hr]

theorem p4_res (V : Valuation τ sig (Elt F)) :
    after (p3 ++ w4) V (main_v8 : DevRef τ sig) = take64 (elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))))) (V (main_arg1 : DevRef τ sig)) := by
  rw [after_append, w4_res, p3_res, p3_kept V main_arg1 (by decide)]

theorem p5_kept (V : Valuation τ sig (Elt F)) (r : Ref sig .tc) (hr : r ∈ argRefs) :
    after (p4 ++ w5) V (Proc.devRef .tc r) = V (Proc.devRef .tc r) := by
  rw [after_append, w5_kept _ r hr, p4_kept V r hr]

theorem p5_res (V : Valuation τ sig (Elt F)) :
    after (p4 ++ w5) V (main_v13 : DevRef τ sig) = addf (Host.dotGeneral dot_S100000x768_S768x64_S100000x64_1_0_0_1_n_n none (shapeCast S100000x768 (take64 (elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))))) (V (main_arg1 : DevRef τ sig))) shapeCasts_S100000x12x64_S100000x768) (V (main_arg4 : DevRef τ sig))) (broadcastInDim S100000x64 ![0, 1] bcast_S1x64_S100000x64_0_1 (broadcastInDim S1x64 ![1] bcast_S64_S1x64_1 (V (main_arg5 : DevRef τ sig)))) := by
  rw [after_append, w5_res, p4_res, p4_kept V main_arg4 (by decide), p4_kept V main_arg5 (by decide)]

theorem p6_kept (V : Valuation τ sig (Elt F)) (r : Ref sig .tc) (hr : r ∈ argRefs) :
    after (p5 ++ w6) V (Proc.devRef .tc r) = V (Proc.devRef .tc r) := by
  rw [after_append, w6_kept _ r hr, p5_kept V r hr]

theorem p6_res (V : Valuation τ sig (Elt F)) :
    after (p5 ++ w6) V (main_v14 : DevRef τ sig) = elu64 (addf (Host.dotGeneral dot_S100000x768_S768x64_S100000x64_1_0_0_1_n_n none (shapeCast S100000x768 (take64 (elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))))) (V (main_arg1 : DevRef τ sig))) shapeCasts_S100000x12x64_S100000x768) (V (main_arg4 : DevRef τ sig))) (broadcastInDim S100000x64 ![0, 1] bcast_S1x64_S100000x64_0_1 (broadcastInDim S1x64 ![1] bcast_S64_S1x64_1 (V (main_arg5 : DevRef τ sig))))) := by
  rw [after_append, w6_res, p5_res]

theorem p7_kept (V : Valuation τ sig (Elt F)) (r : Ref sig .tc) (hr : r ∈ argRefs) :
    after (p6 ++ w7) V (Proc.devRef .tc r) = V (Proc.devRef .tc r) := by
  rw [after_append, w7_kept _ r hr, p6_kept V r hr]

theorem p7_res (V : Valuation τ sig (Elt F)) :
    after (p6 ++ w7) V (main_v15 : DevRef τ sig) = take64 (elu64 (addf (Host.dotGeneral dot_S100000x768_S768x64_S100000x64_1_0_0_1_n_n none (shapeCast S100000x768 (take64 (elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))))) (V (main_arg1 : DevRef τ sig))) shapeCasts_S100000x12x64_S100000x768) (V (main_arg4 : DevRef τ sig))) (broadcastInDim S100000x64 ![0, 1] bcast_S1x64_S100000x64_0_1 (broadcastInDim S1x64 ![1] bcast_S64_S1x64_1 (V (main_arg5 : DevRef τ sig)))))) (V (main_arg1 : DevRef τ sig)) := by
  rw [after_append, w7_res, p6_res, p6_kept V main_arg1 (by decide)]

theorem p8_kept (V : Valuation τ sig (Elt F)) (r : Ref sig .tc) (hr : r ∈ argRefs) :
    after (p7 ++ w8) V (Proc.devRef .tc r) = V (Proc.devRef .tc r) := by
  rw [after_append, w8_kept _ r hr, p7_kept V r hr]

theorem p8_res (V : Valuation τ sig (Elt F)) :
    after (p7 ++ w8) V (main_v21 : DevRef τ sig) = broadcastInDim S100000x32x1 ![0, 1] bcast_S100000x32_S100000x32x1_0_1 (addf (Host.dotGeneral dot_S100000x768_S768x32_S100000x32_1_0_0_1_n_n none (shapeCast S100000x768 (take64 (elu64 (addf (Host.dotGeneral dot_S100000x768_S768x64_S100000x64_1_0_0_1_n_n none (shapeCast S100000x768 (take64 (elu64 (addf (Host.dotGeneral dot_S100000x384_S384x64_S100000x64_1_0_0_1_n_n none (shapeCast S100000x384 (take32 (shapeCast S100000x32 (V (main_arg0 : DevRef τ sig)) shapeCasts_S100000x32x1_S100000x32) (V (main_arg1 : DevRef τ sig))) shapeCasts_S100000x12x32_S100000x384) (V (main_arg2 : DevRef τ sig))) (broadcastInDim S100000x64 ![0, 1] bcast_S1x64_S100000x64_0_1 (broadcastInDim S1x64 ![1] bcast_S64_S1x64_1 (V (main_arg3 : DevRef τ sig)))))) (V (main_arg1 : DevRef τ sig))) shapeCasts_S100000x12x64_S100000x768) (V (main_arg4 : DevRef τ sig))) (broadcastInDim S100000x64 ![0, 1] bcast_S1x64_S100000x64_0_1 (broadcastInDim S1x64 ![1] bcast_S64_S1x64_1 (V (main_arg5 : DevRef τ sig)))))) (V (main_arg1 : DevRef τ sig))) shapeCasts_S100000x12x64_S100000x768) (V (main_arg6 : DevRef τ sig))) (broadcastInDim S100000x32 ![0, 1] bcast_S1x32_S100000x32_0_1 (broadcastInDim S1x32 ![1] bcast_S32_S1x32_1 (V (main_arg7 : DevRef τ sig))))) := by
  rw [after_append, w8_res, p7_res, p7_kept V main_arg6 (by decide), p7_kept V main_arg7 (by decide)]

/-- The whole line leaves the result buffer at `out` of the argument contents it started from. -/
theorem ops_res (V : Valuation τ sig (Elt F)) :
    after ops V (main_v21 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) :=
  p8_res V

/-- and every argument buffer as it was. -/
theorem ops_kept (V : Valuation τ sig (Elt F)) (r : Ref sig .tc) (hr : r ∈ argRefs) :
    after ops V (Proc.devRef .tc r) = V (Proc.devRef .tc r) :=
  p8_kept V r hr

/-! ## The run -/

/-- At the compiled mesh, for any float values, from any memory with zero counters: every weakly fair execution of the
    reference terminates, its result buffer at `out` of the argument arrays as launched, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v21) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v21).trans (ops_res _),
      (h c main_arg0).trans (ops_kept _ main_arg0 (by decide)),
      (h c main_arg1).trans (ops_kept _ main_arg1 (by decide)),
      (h c main_arg2).trans (ops_kept _ main_arg2 (by decide)),
      (h c main_arg3).trans (ops_kept _ main_arg3 (by decide)),
      (h c main_arg4).trans (ops_kept _ main_arg4 (by decide)),
      (h c main_arg5).trans (ops_kept _ main_arg5 (by decide)),
      (h c main_arg6).trans (ops_kept _ main_arg6 (by decide)),
      (h c main_arg7).trans (ops_kept _ main_arg7 (by decide))⟩)
    (run_seq scopedRefs_eq scopedSems_eq defs main (fun _ => ops) main_eq (fun _ => ops_sub) m ρ (fun _ => ops_fresh))

end Cert.ReferenceIdeal.RefRun

end
-- ==== Proof.Bridge.lean ====
/-
  The reference's composed term is the network function the kernel's result buffer ends at.

  * The gather chains of the two programs are the same operations over the same shapes, so they are one function.
  * The reference adds the bias to a product after spreading it first to a [1, N] row and then over the rows; the kernel
    recasts the bias to a [1, N] row. A vector made a one-row array either way is the same array, and a plain product plus
    a row spread over the rows is the affine stage (a, c) ↦ Σ_k g(a,k)·w(k,c) + b(0,c).
  * The reference's unit where(y > 0, y, 1·expm1(where(y > 0, 0, y))) is, entry by entry, the kernel's
    where(y > 0, y, exp y − 1).
  Rewriting the reference's term layer by layer with these gives the network function.
-/
import proofs.«172248_j11819749998924_1_alg».proof.Proof.KernelValue
import proofs.«172248_j11819749998924_1_alg».proof.Proof.RefRun
import proofs.«172248_j11819749998924_1_alg».proof.Proof.Gen.ReferenceIdeal
import proofs.«172248_j11819749998924_1_alg».proof.Proof.LibEluStage

noncomputable section

namespace Cert.Spiral

open Idealize.ShloMosaic Idealize.ShloMosaic.ValueIdx

attribute [local irreducible] Host.reduce Host.gather in
/-- The two programs' gather chains at 32 columns are one function: the same operations over the same shapes. -/
theorem take32_eq (h : FVec Ideal Cert.KernelIdeal.S100000x32 .f32) (idx : IVec Cert.KernelIdeal.S100000x12 32) :
    Cert.ReferenceIdeal.RefRun.take32 (F := Ideal) h idx = Cert.KernelIdeal.Spiral.take32 h idx := rfl

attribute [local irreducible] Host.reduce Host.gather in
/-- And at 64 columns. -/
theorem take64_eq (h : FVec Ideal Cert.KernelIdeal.S100000x64 .f32) (idx : IVec Cert.KernelIdeal.S100000x12 32) :
    Cert.ReferenceIdeal.RefRun.take64 (F := Ideal) h idx = Cert.KernelIdeal.Spiral.take64 h idx := rfl

/-- The reference's product plus bias (the bias spread as a row, then over the rows) is the affine stage with the bias
    recast to a row: a vector made a one-row array by a broadcast or by a reshape is the same array. -/
theorem aff0_eq (g : FVec Ideal Cert.KernelIdeal.S100000x384 .f32) (W : FVec Ideal Cert.KernelIdeal.S384x64 .f32) (b : FVec Ideal Cert.KernelIdeal.S64 .f32) :
    addf (Host.dotGeneral (F := Ideal) Cert.ReferenceIdeal.dot_S100000x384_S384x64_S100000x64_1_0_0_1_n_n none g W)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b))
      = Cert.LibEluStage.affine 100000 384 64 g W (shapeCast Cert.KernelIdeal.S1x64 b Cert.KernelIdeal.Facts₀.shapeCasts_S64_S1x64) := by
  rw [← Cert.LibEluStage.row_cast_eq_bcast 64 b Cert.KernelIdeal.Facts₀.shapeCasts_S64_S1x64 Cert.ReferenceIdeal.Facts₀.bcast_S64_S1x64_1]
  exact Cert.LibEluStage.affine_of_dotGeneral 100000 384 64 g W _ Cert.ReferenceIdeal.Facts₀.bcast_S1x64_S100000x64_0_1

/-- The reference's product plus bias (the bias spread as a row, then over the rows) is the affine stage with the bias
    recast to a row: a vector made a one-row array by a broadcast or by a reshape is the same array. -/
theorem aff1_eq (g : FVec Ideal Cert.KernelIdeal.S100000x768 .f32) (W : FVec Ideal Cert.KernelIdeal.S768x64 .f32) (b : FVec Ideal Cert.KernelIdeal.S64 .f32) :
    addf (Host.dotGeneral (F := Ideal) Cert.ReferenceIdeal.dot_S100000x768_S768x64_S100000x64_1_0_0_1_n_n none g W)
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b))
      = Cert.LibEluStage.affine 100000 768 64 g W (shapeCast Cert.KernelIdeal.S1x64 b Cert.KernelIdeal.Facts₀.shapeCasts_S64_S1x64) := by
  rw [← Cert.LibEluStage.row_cast_eq_bcast 64 b Cert.KernelIdeal.Facts₀.shapeCasts_S64_S1x64 Cert.ReferenceIdeal.Facts₀.bcast_S64_S1x64_1]
  exact Cert.LibEluStage.affine_of_dotGeneral 100000 768 64 g W _ Cert.ReferenceIdeal.Facts₀.bcast_S1x64_S100000x64_0_1

/-- The reference's product plus bias (the bias spread as a row, then over the rows) is the affine stage with the bias
    recast to a row: a vector made a one-row array by a broadcast or by a reshape is the same array. -/
theorem aff2_eq (g : FVec Ideal Cert.KernelIdeal.S100000x768 .f32) (W : FVec Ideal Cert.KernelIdeal.S768x32 .f32) (b : FVec Ideal Cert.KernelIdeal.S32 .f32) :
    addf (Host.dotGeneral (F := Ideal) Cert.ReferenceIdeal.dot_S100000x768_S768x32_S100000x32_1_0_0_1_n_n none g W)
        (broadcastInDim Cert.ReferenceIdeal.S100000x32 ![0, 1] Cert.ReferenceIdeal.Facts₀.bcast_S1x32_S100000x32_0_1
          (broadcastInDim Cert.ReferenceIdeal.S1x32 ![1] Cert.ReferenceIdeal.Facts₀.bcast_S32_S1x32_1 b))
      = Cert.LibEluStage.affine 100000 768 32 g W (shapeCast Cert.KernelIdeal.S1x32 b Cert.KernelIdeal.Facts₀.shapeCasts_S32_S1x32) := by
  rw [← Cert.LibEluStage.row_cast_eq_bcast 32 b Cert.KernelIdeal.Facts₀.shapeCasts_S32_S1x32 Cert.ReferenceIdeal.Facts₀.bcast_S32_S1x32_1]
  exact Cert.LibEluStage.affine_of_dotGeneral 100000 768 32 g W _ Cert.ReferenceIdeal.Facts₀.bcast_S1x32_S100000x32_0_1

/-- A hidden layer of the reference is the kernel's layer function. -/
theorem layer0_eq (g : FVec Ideal Cert.KernelIdeal.S100000x384 .f32) (W : FVec Ideal Cert.KernelIdeal.S384x64 .f32) (b : FVec Ideal Cert.KernelIdeal.S64 .f32) :
    Cert.ReferenceIdeal.RefRun.elu64 (F := Ideal)
        (addf (Host.dotGeneral (F := Ideal) Cert.ReferenceIdeal.dot_S100000x384_S384x64_S100000x64_1_0_0_1_n_n none g W)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)))
      = Cert.KernelIdeal.Spiral.layer0 g W (shapeCast Cert.KernelIdeal.S1x64 b Cert.KernelIdeal.Facts₀.shapeCasts_S64_S1x64) := by
  rw [aff0_eq]
  unfold Cert.ReferenceIdeal.RefRun.elu64
  exact Cert.LibEluStage.elu_of_expm1 _ Cert.ReferenceIdeal.Facts₀.bcast_S_S100000x64

/-- A hidden layer of the reference is the kernel's layer function. -/
theorem layer1_eq (g : FVec Ideal Cert.KernelIdeal.S100000x768 .f32) (W : FVec Ideal Cert.KernelIdeal.S768x64 .f32) (b : FVec Ideal Cert.KernelIdeal.S64 .f32) :
    Cert.ReferenceIdeal.RefRun.elu64 (F := Ideal)
        (addf (Host.dotGeneral (F := Ideal) Cert.ReferenceIdeal.dot_S100000x768_S768x64_S100000x64_1_0_0_1_n_n none g W)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)))
      = Cert.KernelIdeal.Spiral.layer1 g W (shapeCast Cert.KernelIdeal.S1x64 b Cert.KernelIdeal.Facts₀.shapeCasts_S64_S1x64) := by
  rw [aff1_eq]
  unfold Cert.ReferenceIdeal.RefRun.elu64
  exact Cert.LibEluStage.elu_of_expm1 _ Cert.ReferenceIdeal.Facts₀.bcast_S_S100000x64

/-- The reference's result is the network function the kernel's result buffer ends at. -/
theorem ref_eq_net (x : FVec Ideal Cert.KernelIdeal.S100000x32x1 .f32) (idx : IVec Cert.KernelIdeal.S100000x12 32) (W0 : FVec Ideal Cert.KernelIdeal.S384x64 .f32) (b0 : FVec Ideal Cert.KernelIdeal.S64 .f32)
    (W1 : FVec Ideal Cert.KernelIdeal.S768x64 .f32) (b1 : FVec Ideal Cert.KernelIdeal.S64 .f32) (W2 : FVec Ideal Cert.KernelIdeal.S768x32 .f32) (b2 : FVec Ideal Cert.KernelIdeal.S32 .f32) :
    Cert.ReferenceIdeal.RefRun.out (F := Ideal) x idx W0 b0 W1 b1 W2 b2 = Cert.KernelIdeal.Spiral.net x idx W0 b0 W1 b1 W2 b2 := by
  unfold Cert.ReferenceIdeal.RefRun.out Cert.KernelIdeal.Spiral.net Cert.KernelIdeal.Spiral.hid3 Cert.KernelIdeal.Spiral.hid2 Cert.KernelIdeal.Spiral.hid1 Cert.KernelIdeal.Spiral.flat64 Cert.KernelIdeal.Spiral.act0 Cert.KernelIdeal.Spiral.layer2
  rw [take32_eq, layer0_eq, take64_eq, layer1_eq, take64_eq, aff2_eq]

end Cert.Spiral

end
-- ==== Proof.lean ====
/-
  The certificate of a three-layer spiral convolution network: a Pallas kernel program against its jnp reference, equal as
  extended reals.

  Both programs compute, for 100000 vertices, three times: gather the rows of the current activations at each vertex's
  twelve neighbour numbers (a negative number counts from the end; a number outside 0 … 99999 gives the fill word),
  lay the twelve rows side by side, multiply by the layer's weight, add the bias — and, after the first two layers, apply
  the exponential linear unit. The kernel program does each product in a pallas_call over 50 blocks of 2000 rows, with the
  operands narrowed to a 16-bit format on the way into the matrix unit (the identity on the extended reals) and the unit
  spelt where(y > 0, y, exp y − 1); the reference does one whole product per layer and spells the unit
  where(y > 0, y, 1·expm1(where(y > 0, 0, y))).

  * The kernel side: each call leaves its result array at the layer function of the arrays it found — a row of the
    product depends only on the same row of the activations, so the 50 blocks are blocks of one whole-array function and
    they tile the array (the three layer modules); read through @main's host stretches, the result buffer ends at the
    network function net of the eight arguments (the value module), in the run that names that buffer.
  * The reference side: its run, read back as the composed term out of the arguments (the reference-run module).
  * The bridge: the two gather chains are the same operations; a product plus a row-broadcast bias is the affine stage
    in both spellings; the two spellings of the unit agree entry by entry — where the comparison answers 1 both give y,
    elsewhere expm1 y = e^y − 1 and 1·z = z. No law used needs finite inputs, so the precondition is never opened.
  The frames of the two kernel programs are their frame theorems; the reference's frame is its run with the result
  dropped; the ideal pass rewrote nothing, so the idealization conjunct is trivial.
-/
import proofs.«172248_j11819749998924_1_alg».proof.Defs
import proofs.«172248_j11819749998924_1_alg».proof.Proof.Gen.Kernel
import proofs.«172248_j11819749998924_1_alg».proof.Proof.Gen.Kernel.Frame
import proofs.«172248_j11819749998924_1_alg».proof.Proof.Gen.KernelIdeal
import proofs.«172248_j11819749998924_1_alg».proof.Proof.Gen.KernelIdeal.Frame
import proofs.«172248_j11819749998924_1_alg».proof.Proof.Gen.ReferenceIdeal
import proofs.«172248_j11819749998924_1_alg».proof.Proof.Gen.Pre_finite_inputs
import proofs.«172248_j11819749998924_1_alg».proof.Proof.RunNamed
import proofs.«172248_j11819749998924_1_alg».proof.Proof.KernelValue
import proofs.«172248_j11819749998924_1_alg».proof.Proof.RefRun
import proofs.«172248_j11819749998924_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the network function of the (agreeing) arguments in their result buffers. -/
theorem algebraic : Cert.algebraic_KernelIdeal_ReferenceIdeal := by
  intro m ρ m' ρ' _ hagree
  refine ⟨fun c => Cert.KernelIdeal.Spiral.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Spiral.W11_v13 m ρ c), (h c).2⟩)
      (Cert.KernelIdeal.Spiral.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact Cert.Spiral.ref_eq_net _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
